-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x1 .f32) (main_arg11 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x32 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S5000x1 : Shape := ⟨2, ![5000, 1]⟩
abbrev S1x64 : Shape := ⟨2, ![1, 64]⟩
abbrev S100000x32 : Shape := ⟨2, ![100000, 32]⟩
abbrev S4000x64 : Shape := ⟨2, ![4000, 64]⟩
abbrev S4000x1 : Shape := ⟨2, ![4000, 1]⟩
abbrev S4000x32 : Shape := ⟨2, ![4000, 32]⟩
abbrev S1x32 : Shape := ⟨2, ![1, 32]⟩
abbrev S4000x16 : Shape := ⟨2, ![4000, 16]⟩
abbrev S1x16 : Shape := ⟨2, ![1, 16]⟩
abbrev S1x1 : Shape := ⟨2, ![1, 1]⟩

abbrev nBuf : Space → Nat
  | .hbm => 58
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x32, .f32⟩
  | .hbm, ⟨57, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S5000x64, .f32⟩
  | .local _ .vmem, ⟨10, _⟩ => ⟨S5000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x1, .f32⟩
  | .local _ .vmem, ⟨16, _⟩ => ⟨S4000x1, .f32⟩
  | .local _ .vmem, ⟨17, _⟩ => ⟨S64x32, .f32⟩
  | .local _ .vmem, ⟨18, _⟩ => ⟨S64x32, .f32⟩
  | .local _ .vmem, ⟨19, _⟩ => ⟨S32, .f32⟩
  | .local _ .vmem, ⟨20, _⟩ => ⟨S32x16, .f32⟩
  | .local _ .vmem, ⟨21, _⟩ => ⟨S16, .f32⟩
  | .local _ .vmem, ⟨22, _⟩ => ⟨S16x1, .f32⟩
  | .local _ .vmem, ⟨23, _⟩ => ⟨S1, .f32⟩
  | .local _ .vmem, ⟨24, _⟩ => ⟨S4000x32, .f32⟩
  | .local _ .vmem, ⟨25, _⟩ => ⟨S4000x32, .f32⟩
  | .local _ .vmem, ⟨26, _⟩ => ⟨S4000x1, .f32⟩
  | .local _ .vmem, ⟨27, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S4000x64_S64x32_S4000x32_1_0_0_1_n_n_wf : DotDims.WF S4000x64 S64x32 S4000x32 [1] [0] [0] [1] [] []
  dot_S4000x32_S32x16_S4000x16_1_0_0_1_n_n_wf : DotDims.WF S4000x32 S32x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x16.size a ≤ S32x16.size a
  hwx1_6 : ∀ i : grid1.Coords, EltTy.bits .f32 = 32 ∨ (Rect.block (s := S32x16) S32x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x1.size a ≤ S16x1.size a
  hwx1_8 : ∀ i : grid1.Coords, EltTy.bits .f32 = 32 ∨ (Rect.block (s := S16x1) S16x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x32.size a ≤ S100000x32.size a
  hwx1_10 : ∀ i : grid1.Coords, EltTy.bits .f32 = 32 ∨ (Rect.block (s := S100000x32) S4000x32.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x1.size a ≤ S100000x1.size a
  hwx1_11 : ∀ i : grid1.Coords, EltTy.bits .f32 = 32 ∨ (Rect.block (s := S100000x1) S4000x1.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S32x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S16x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34_0) S4000x32.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v34_1) S4000x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .hbm, ⟨85, _⟩ => ⟨S_, .f32⟩
  | .hbm, ⟨86, _⟩ => ⟨S100000x16, .f32⟩
  | .hbm, ⟨87, _⟩ => ⟨S100000x16, .f32⟩
  | .hbm, ⟨88, _⟩ => ⟨S100000x1, .f32⟩
  | .hbm, ⟨89, _⟩ => ⟨S1x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.WholeRun.lean ====
/-
  The run of the idealized kernel program, read at every buffer.

  The program is two kernel regions between stretches of host operations.  Its generated frame proof
  already threads, through those four segments, the contents of every unscoped buffer of a core: at the
  launch the memory itself, after each host stretch the stretch's operations applied, after each region the
  region's arrays at what its write-backs leave and every other buffer as it was.  The frame claim only
  keeps, of that last valuation, the argument arrays.  Here the same four segments are run once more and the
  whole last valuation is kept: after every weakly fair execution each unscoped buffer of each core holds
  the fold's value at that buffer.  The two result arrays are then two instances of this statement.
-/
import proofs.«134192_j80023830659561_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every
    core ends at the last valuation of the fold through @main's four segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The two result arrays and the twelve argument arrays after the run: the results at the last valuation,
    the arguments as launched. -/
theorem run_results : θ_run defs (onTc (τ := τ) (main (F := F))) ⟨m, fun _ => 0, ρ⟩ (fun r => ∀ c : Dev nD,
      r.2.mem ((c.tc : Thread nD τ).loc main_v34_0) = W4 m ρ c (Proc.devRef .tc main_v34_0)
      ∧ r.2.mem ((c.tc : Thread nD τ).loc main_v34_1) = W4 m ρ c (Proc.devRef .tc main_v34_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v34_0 (by decide)),
       h c _ (mem_uc main_v34_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_all m ρ)

end Cert.KernelIdeal.WholeRun

end
-- ==== Proof.Stages.lean ====
/-
  The host-side stages of the idealized kernel program, named, and the contents of the arrays its two
  kernel regions find.

  Around the two kernels the program computes, on the host, from the edge list `ei` (row 0 the sources, row 1
  the destinations) and a node-feature array `h`:
    * `aggSum ei h`  — for every node the SUM of `h` over its incoming edges' sources (a gather of the source rows,
      a negative source counted from the end, then a scatter-add into the destination rows of a zero array);
    * `degMax ei`    — for every node max(its number of incoming edges, 1) (a scatter-add of ones, then the maximum with one);
    * `invDeg ei`    — the reciprocals 1 / degMax, as a column.
  The first kernel is entered with `aggSum ei x`, `x` and `invDeg ei`; the second with `aggSum ei h₁`, `h₁` and the same
  `invDeg ei`, where `h₁` is what the first kernel left.  The weight and bias arrays reach both unchanged.
-/
import proofs.«134192_j80023830659561_2_alg».proof.Proof.Gen.KernelIdeal.Frame
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The sources of the edges, one per edge. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The destinations of the edges, one per edge. -/
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The sources as a column of row numbers, a negative one counted from the end. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32))) (srcRow ei))

/-- The destinations as a column of row numbers. -/
def dstCol (ei : (⟨S2x1600000, .i32⟩ : BufTy).Contents (Elt F)) : (⟨S1600000x1, .i32⟩ : BufTy).Contents (Elt F) :=
  broadcastInDim S1600000x1 ![0] bcast_S1600000_S1600000x1_0 (dstRow ei)

/-- For every node, the sum of `h` over the sources of its incoming edges. -/
def aggSum (ei : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 h (srcCol ei))

/-- The larger of a count and one, node by node. -/
def atLeastOne (d : (⟨S100000, .f32⟩ : BufTy).Contents (Elt F)) : (⟨S100000, .f32⟩ : BufTy).Contents (Elt F) :=
  maximumf d (broadcastInDim S100000 ![] bcast_S_S100000 (constant S_ .f32 0x3F800000#32))

/-- For every node, its number of incoming edges: a scatter-add of ones. -/
def degRaw (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (dstCol ei)
    (broadcastInDim S1600000 ![] bcast_S_S1600000 (constant S_ .f32 0x3F800000#32))

/-- For every node, the larger of its number of incoming edges and one. -/
def degMax (ei : (⟨S2x1600000, .i32⟩ : BufTy).Contents (Elt F)) : (⟨S100000, .f32⟩ : BufTy).Contents (Elt F) :=
  atLeastOne (degRaw ei)

/-- The reciprocals of a positive count, as a column. -/
def recipCol (d : (⟨S100000, .f32⟩ : BufTy).Contents (Elt F)) : (⟨S100000x1, .f32⟩ : BufTy).Contents (Elt F) :=
  shapeCast S100000x1 (Host.divf (broadcastInDim S100000 ![] bcast_S_S100000 (constant S_ .f32 0x3F800000#32)) d)
    shapeCasts_S100000_S100000x1

/-- The reciprocals of `degMax`, as a column. -/
def invDeg (ei : (⟨S2x1600000, .i32⟩ : BufTy).Contents (Elt F)) : (⟨S100000x1, .f32⟩ : BufTy).Contents (Elt F) :=
  recipCol (degMax ei)

variable (m : (ℓ : Loc nD τ sig) → Buf (Elt F) ℓ) (ρ : Dev nD → PrngReg)

/-! ## What the first kernel finds -/

set_option maxHeartbeats 2000000 in
theorem enter0_agg (c : Dev nD) :
    V1 m ρ c main_v22 = aggSum (m ((c.tc : Thread nD τ).loc main_arg1)) (m ((c.tc : Thread nD τ).loc main_arg0)) := by
  dsimp only [V1, W1, hostOps0]
  after_results_simp
  rfl

set_option maxHeartbeats 2000000 in
theorem enter0_inv (c : Dev nD) : V1 m ρ c main_v12 = invDeg (m ((c.tc : Thread nD τ).loc main_arg1)) := by
  dsimp only [V1, W1, hostOps0]
  after_results_simp
  rfl

set_option maxHeartbeats 2000000 in
theorem enter0_src (c : Dev nD) : V1 m ρ c main_v1 = srcRow (m ((c.tc : Thread nD τ).loc main_arg1)) := by
  dsimp only [V1, W1, hostOps0]
  after_results_simp
  rfl

set_option maxHeartbeats 2000000 in
theorem enter0_dst (c : Dev nD) : V1 m ρ c main_v3 = dstRow (m ((c.tc : Thread nD τ).loc main_arg1)) := by
  dsimp only [V1, W1, hostOps0]
  after_results_simp
  rfl

theorem enter0_arg0 (c : Dev nD) : V1 m ρ c main_arg0 = m ((c.tc : Thread nD τ).loc main_arg0) := by
  dsimp only [V1, W1, hostOps0]; after_results_simp <;> rfl
theorem enter0_arg2 (c : Dev nD) : V1 m ρ c main_arg2 = m ((c.tc : Thread nD τ).loc main_arg2) := by
  dsimp only [V1, W1, hostOps0]; after_results_simp <;> rfl
theorem enter0_arg3 (c : Dev nD) : V1 m ρ c main_arg3 = m ((c.tc : Thread nD τ).loc main_arg3) := by
  dsimp only [V1, W1, hostOps0]; after_results_simp <;> rfl
theorem enter0_arg4 (c : Dev nD) : V1 m ρ c main_arg4 = m ((c.tc : Thread nD τ).loc main_arg4) := by
  dsimp only [V1, W1, hostOps0]; after_results_simp <;> rfl

/-! ## Between the kernels: what the first one leaves of the buffers the second stretch reads -/

/-- The first kernel's result array, as its region leaves it. -/
abbrev hidden (c : Dev nD) : (⟨S100000x64, .f32⟩ : BufTy).Contents (Elt F) := W2 m ρ c (Proc.devRef .tc main_v23)

theorem mid_src (c : Dev nD) : W2 m ρ c (Proc.devRef .tc main_v1) = srcRow (m ((c.tc : Thread nD τ).loc main_arg1)) :=
  (W2_of_ne m ρ c main_v1 (by decide)).trans (enter0_src m ρ c)
theorem mid_dst (c : Dev nD) : W2 m ρ c (Proc.devRef .tc main_v3) = dstRow (m ((c.tc : Thread nD τ).loc main_arg1)) :=
  (W2_of_ne m ρ c main_v3 (by decide)).trans (enter0_dst m ρ c)
theorem mid_inv (c : Dev nD) : W2 m ρ c (Proc.devRef .tc main_v12) = invDeg (m ((c.tc : Thread nD τ).loc main_arg1)) :=
  (W2_arr m ρ c 2).trans ((((dat0 (V1 m ρ) c).arrAt_in 2 rfl _).trans (A_eq0 (V1 m ρ) c 2)).trans (enter0_inv m ρ c))
theorem mid_arg5 (c : Dev nD) : W2 m ρ c (Proc.devRef .tc main_arg5) = m ((c.tc : Thread nD τ).loc main_arg5) :=
  (W2_of_ne m ρ c main_arg5 (by decide)).trans (by dsimp only [W1, hostOps0]; after_results_simp <;> rfl)
theorem mid_arg6 (c : Dev nD) : W2 m ρ c (Proc.devRef .tc main_arg6) = m ((c.tc : Thread nD τ).loc main_arg6) :=
  (W2_of_ne m ρ c main_arg6 (by decide)).trans (by dsimp only [W1, hostOps0]; after_results_simp <;> rfl)
theorem mid_arg7 (c : Dev nD) : W2 m ρ c (Proc.devRef .tc main_arg7) = m ((c.tc : Thread nD τ).loc main_arg7) :=
  (W2_of_ne m ρ c main_arg7 (by decide)).trans (by dsimp only [W1, hostOps0]; after_results_simp <;> rfl)
theorem mid_arg8 (c : Dev nD) : W2 m ρ c (Proc.devRef .tc main_arg8) = m ((c.tc : Thread nD τ).loc main_arg8) :=
  (W2_of_ne m ρ c main_arg8 (by decide)).trans (by dsimp only [W1, hostOps0]; after_results_simp <;> rfl)
theorem mid_arg9 (c : Dev nD) : W2 m ρ c (Proc.devRef .tc main_arg9) = m ((c.tc : Thread nD τ).loc main_arg9) :=
  (W2_of_ne m ρ c main_arg9 (by decide)).trans (by dsimp only [W1, hostOps0]; after_results_simp <;> rfl)
theorem mid_arg10 (c : Dev nD) : W2 m ρ c (Proc.devRef .tc main_arg10) = m ((c.tc : Thread nD τ).loc main_arg10) :=
  (W2_of_ne m ρ c main_arg10 (by decide)).trans (by dsimp only [W1, hostOps0]; after_results_simp <;> rfl)
theorem mid_arg11 (c : Dev nD) : W2 m ρ c (Proc.devRef .tc main_arg11) = m ((c.tc : Thread nD τ).loc main_arg11) :=
  (W2_of_ne m ρ c main_arg11 (by decide)).trans (by dsimp only [W1, hostOps0]; after_results_simp <;> rfl)

/-! ## What the second kernel finds -/

set_option maxHeartbeats 2000000 in
theorem enter1_agg (c : Dev nD) : V3 m ρ c main_v33 = aggSum (m ((c.tc : Thread nD τ).loc main_arg1)) (hidden m ρ c) := by
  dsimp only [V3, W3, hostOps1]
  after_results_simp
  rw [mid_src, mid_dst]
  rfl

theorem enter1_hidden (c : Dev nD) : V3 m ρ c main_v23 = hidden m ρ c := by
  dsimp only [V3, W3, hostOps1]; after_results_simp <;> rfl
theorem enter1_inv (c : Dev nD) : V3 m ρ c main_v12 = invDeg (m ((c.tc : Thread nD τ).loc main_arg1)) := by
  refine Eq.trans ?_ (mid_inv m ρ c)
  dsimp only [V3, W3, hostOps1]; after_results_simp <;> rfl
theorem enter1_arg5 (c : Dev nD) : V3 m ρ c main_arg5 = m ((c.tc : Thread nD τ).loc main_arg5) := by
  refine Eq.trans ?_ (mid_arg5 m ρ c)
  dsimp only [V3, W3, hostOps1]; after_results_simp <;> rfl
theorem enter1_arg6 (c : Dev nD) : V3 m ρ c main_arg6 = m ((c.tc : Thread nD τ).loc main_arg6) := by
  refine Eq.trans ?_ (mid_arg6 m ρ c)
  dsimp only [V3, W3, hostOps1]; after_results_simp <;> rfl
theorem enter1_arg7 (c : Dev nD) : V3 m ρ c main_arg7 = m ((c.tc : Thread nD τ).loc main_arg7) := by
  refine Eq.trans ?_ (mid_arg7 m ρ c)
  dsimp only [V3, W3, hostOps1]; after_results_simp <;> rfl
theorem enter1_arg8 (c : Dev nD) : V3 m ρ c main_arg8 = m ((c.tc : Thread nD τ).loc main_arg8) := by
  refine Eq.trans ?_ (mid_arg8 m ρ c)
  dsimp only [V3, W3, hostOps1]; after_results_simp <;> rfl
theorem enter1_arg9 (c : Dev nD) : V3 m ρ c main_arg9 = m ((c.tc : Thread nD τ).loc main_arg9) := by
  refine Eq.trans ?_ (mid_arg9 m ρ c)
  dsimp only [V3, W3, hostOps1]; after_results_simp <;> rfl
theorem enter1_arg10 (c : Dev nD) : V3 m ρ c main_arg10 = m ((c.tc : Thread nD τ).loc main_arg10) := by
  refine Eq.trans ?_ (mid_arg10 m ρ c)
  dsimp only [V3, W3, hostOps1]; after_results_simp <;> rfl
theorem enter1_arg11 (c : Dev nD) : V3 m ρ c main_arg11 = m ((c.tc : Thread nD τ).loc main_arg11) := by
  refine Eq.trans ?_ (mid_arg11 m ρ c)
  dsimp only [V3, W3, hostOps1]; after_results_simp <;> rfl

end Cert.KernelIdeal.Stages

end
-- ==== Proof.SageMath.lean ====
/-
  The arithmetic of one mean-aggregating graph layer at one node, on the extended reals.

  A layer maps a node's summed neighbour features `a`, its neighbour count `d` (never below one), and its own
  features `x` to  Σₖ (aₖ / d) · wlₖ + Σₖ xₖ · wrₖ + b.  One program divides by `d`; the other multiplies
  by the reciprocal `1 / d` computed once.  On the extended reals a quotient by a NONZERO divisor is the
  product with the divisor's inverse, and `1 / d` is that inverse, so the two agree whatever `a` is — at the
  infinities too.  The divisor here is `max deg 1`, which is at least one and so not zero.
-/
import Idealize.ShloMosaic.PureOps.Ideal
import Idealize.ShloMosaic.Lib.ValueIdx

noncomputable section

namespace Cert.SageMath

open Idealize.ShloMosaic

/-- The layer's entry with the mean taken by division. -/
def byQuotient {K : Nat} (a : Fin K → EReal) (d : EReal) (x wl wr : Fin K → EReal) (b : EReal) : EReal :=
  (∑ k, Ideal.div (a k) d * wl k) + (∑ k, x k * wr k) + b

/-- The layer's entry with the mean taken by a reciprocal factor. -/
def byReciprocal {K : Nat} (a : Fin K → EReal) (r : EReal) (x wl wr : Fin K → EReal) (b : EReal) : EReal :=
  (∑ k, (a k * r) * wl k) + (∑ k, x k * wr k) + b

/-- Multiplying by `1 / d` is dividing by `d`, for a nonzero `d`. -/
theorem byReciprocal_eq_byQuotient {K : Nat} (a : Fin K → EReal) (d : EReal) (hd : d ≠ 0) (x wl wr : Fin K → EReal) (b : EReal) :
    byReciprocal a (Ideal.div 1 d) x wl wr b = byQuotient a d x wl wr b := by
  unfold byReciprocal byQuotient
  simp only [Ideal.div, if_neg hd, one_mul]

/-- The trust head at one node: a 32→16 linear map, the positive part, a 16→1 linear map, the logistic function. -/
def trustHead (h : Fin 32 → EReal) (w1 : Fin 32 → Fin 16 → EReal) (b1 : Fin 16 → EReal) (w2 : Fin 16 → EReal) (b2 : EReal) : EReal :=
  Ideal.logistic ((∑ k : Fin 16, max ((∑ k' : Fin 32, h k' * w1 k' k) + b1 k) (Ideal.ofBits .f32 0x00000000#32) * w2 k) + b2)

/-- The larger of anything and one is not zero. -/
theorem max_one_ne_zero (v : EReal) : max v 1 ≠ 0 :=
  ne_of_gt (lt_of_lt_of_le zero_lt_one (le_max_right v 1))

/-- The single-precision pattern of one denotes the real number one. -/
theorem ofBits_one : Ideal.ofBits .f32 0x3F800000#32 = (1 : EReal) := by
  simp [Ideal.ofBits, Ideal.ieee, -EReal.coe_mul]; norm_num

end Cert.SageMath

end
-- ==== Proof.Dense.lean ====
/-
  The two kernel bodies' arithmetic, read at one entry of a block.

  Each body loads a block of rows (5000 for the first layer, 4000 for the second) of the summed neighbour
  features, of the node features and of the reciprocal-degree column, and the whole weight and bias arrays.
  At row `p` and column `q` of the block the first body stores
      max( Σₖ (agg(p,k) · inv(p)) · Wl(k,q) + Σₖ x(p,k) · Wr(k,q) + b(q), 0 ),
  the second the same expression without the maximum, and, as its second result, the trust head of its own row
  of that expression.  The roundings to bfloat16 on the way into the matrix unit are the identity on the
  extended reals, a matrix product into a zero accumulator is the plain sum over the contracted index, and the
  broadcasts of a column and of a row read back the one entry they repeat.
-/
import proofs.«134192_j80023830659561_2_alg».proof.Proof.Gen.KernelIdeal.Skeleton
import proofs.«134192_j80023830659561_2_alg».proof.Proof.SageMath
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Cert.SageMath
open Idealize.ShloMosaic Idealize.ShloMosaic.ValueIdx

/-! ## Matrix products at an entry -/

/-- A [5000, 64] by [64, 64] matrix product into the zero accumulator, at row `p` and column `q`: the sum over `k` of
    the left factor at (p, k) times the right factor at (k, q). -/
theorem mm_5000_64_64 {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have l0 : ∀ (i : S5000x64.Idx) (u : dot_S5000x64_S64x64_S5000x64_1_0_0_1_n_n.contr.Idx), (dot_S5000x64_S64x64_S5000x64_1_0_0_1_n_n.lhsIdx i u 0).val = (i 0).val := fun i u => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  have r1 : ∀ (i : S5000x64.Idx) (u : dot_S5000x64_S64x64_S5000x64_1_0_0_1_n_n.contr.Idx), (dot_S5000x64_S64x64_S5000x64_1_0_0_1_n_n.rhsIdx i u 1).val = (i 1).val := fun i u => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact l0 _ _
    | ⟨1, _⟩ => exact ((dot_S5000x64_S64x64_S5000x64_1_0_0_1_n_n.lhsIdx_val_of_single rfl _ _).trans hk))
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact ((dot_S5000x64_S64x64_S5000x64_1_0_0_1_n_n.rhsIdx_val_of_single rfl _ _).trans hk)
    | ⟨1, _⟩ => exact r1 _ _)
  rw [el, er]

/-- A [4000, 64] by [64, 32] matrix product into the zero accumulator, at row `p` and column `q`: the sum over `k` of
    the left factor at (p, k) times the right factor at (k, q). -/
theorem mm_4000_64_32 {φ₁ φ₂ : FTy} (l : FVec Ideal S4000x64 φ₁) (r : FVec Ideal S64x32 φ₂) (p : Fin 4000) (q : Fin 32) :
    matmul dot_S4000x64_S64x32_S4000x32_1_0_0_1_n_n none l r (constant (F := Ideal) S4000x32 .f32 0x00000000#32) (ix2 p q)
      = ∑ k : Fin 64, l (ix2 p k) * r (ix2 k q) := by
  refine (Ideal.matmul_constant_zero_apply dot_S4000x64_S64x32_S4000x32_1_0_0_1_n_n none l r (ix2 p q)).trans ?_
  rw [← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have l0 : ∀ (i : S4000x32.Idx) (u : dot_S4000x64_S64x32_S4000x32_1_0_0_1_n_n.contr.Idx), (dot_S4000x64_S64x32_S4000x32_1_0_0_1_n_n.lhsIdx i u 0).val = (i 0).val := fun i u => by
    unfold DotDims.lhsIdx
    rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
    rfl
  have r1 : ∀ (i : S4000x32.Idx) (u : dot_S4000x64_S64x32_S4000x32_1_0_0_1_n_n.contr.Idx), (dot_S4000x64_S64x32_S4000x32_1_0_0_1_n_n.rhsIdx i u 1).val = (i 1).val := fun i u => by
    unfold DotDims.rhsIdx
    rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
    rfl
  have el : dot_S4000x64_S64x32_S4000x32_1_0_0_1_n_n.lhsIdx (ix2 p q) ((ValueIdx.contrEquiv1 dot_S4000x64_S64x32_S4000x32_1_0_0_1_n_n 64 rfl rfl).symm k) = ix2 p k := funext fun a => Fin.ext (by
    match a with
    | ⟨0, _⟩ => exact l0 _ _
    | ⟨1, _⟩ => exact ((dot_S4000x64_S64x32_S4000x32_1_0_0_1_n_n.lhsIdx_val_of_single rfl _ _).trans hk))
  have er : dot_S4000x64_S64x32_S4000x32_1_0_0_1_n_n.rhsIdx (ix2 p q) ((ValueIdx.contrEquiv1 dot_S4000x64_S64x32_S4000x32_1_0_0_1_n_n 64 rfl rfl).symm k) = ix2 k q := funext fun a => Fin.ext (by
    match a with
    | ⟨0, _⟩ => exact ((dot_S4000x64_S64x32_S4000x32_1_0_0_1_n_n.rhsIdx_val_of_single rfl _ _).trans hk)
    | ⟨1, _⟩ => exact r1 _ _)
  rw [el, er]

/-- A [4000, 32] by [32, 16] matrix product into the zero accumulator, at row `p` and column `q`: the sum over `k` of
    the left factor at (p, k) times the right factor at (k, q). -/
theorem mm_4000_32_16 {φ₁ φ₂ : FTy} (l : FVec Ideal S4000x32 φ₁) (r : FVec Ideal S32x16 φ₂) (p : Fin 4000) (q : Fin 16) :
    matmul dot_S4000x32_S32x16_S4000x16_1_0_0_1_n_n none l r (constant (F := Ideal) S4000x16 .f32 0x00000000#32) (ix2 p q)
      = ∑ k : Fin 32, l (ix2 p k) * r (ix2 k q) := by
  refine (Ideal.matmul_constant_zero_apply dot_S4000x32_S32x16_S4000x16_1_0_0_1_n_n none l r (ix2 p q)).trans ?_
  rw [← Equiv.sum_comp (ValueIdx.contrEquiv1 dot_S4000x32_S32x16_S4000x16_1_0_0_1_n_n 32 rfl rfl).symm]
  refine Finset.sum_congr rfl fun k _ => ?_
  have hk := ValueIdx.contrEquiv1_symm_val dot_S4000x32_S32x16_S4000x16_1_0_0_1_n_n 32 rfl rfl k
  have l0 : ∀ (i : S4000x16.Idx) (u : dot_S4000x32_S32x16_S4000x16_1_0_0_1_n_n.contr.Idx), (dot_S4000x32_S32x16_S4000x16_1_0_0_1_n_n.lhsIdx i u 0).val = (i 0).val := fun i u => by
    unfold DotDims.lhsIdx
    rw [dif_neg (show ¬(0 : Fin S4000x32.rank) ∈ dot_S4000x32_S32x16_S4000x16_1_0_0_1_n_n.lhsBatch by decide), dif_pos (show (0 : Fin S4000x32.rank) ∈ dot_S4000x32_S32x16_S4000x16_1_0_0_1_n_n.lhsNonContracting by decide)]
    rfl
  have r1 : ∀ (i : S4000x16.Idx) (u : dot_S4000x32_S32x16_S4000x16_1_0_0_1_n_n.contr.Idx), (dot_S4000x32_S32x16_S4000x16_1_0_0_1_n_n.rhsIdx i u 1).val = (i 1).val := fun i u => by
    unfold DotDims.rhsIdx
    rw [dif_neg (show ¬(1 : Fin S32x16.rank) ∈ dot_S4000x32_S32x16_S4000x16_1_0_0_1_n_n.rhsBatch by decide), dif_pos (show (1 : Fin S32x16.rank) ∈ dot_S4000x32_S32x16_S4000x16_1_0_0_1_n_n.rhsNonContracting by decide)]
    rfl
  have el : dot_S4000x32_S32x16_S4000x16_1_0_0_1_n_n.lhsIdx (ix2 p q) ((ValueIdx.contrEquiv1 dot_S4000x32_S32x16_S4000x16_1_0_0_1_n_n 32 rfl rfl).symm k) = ix2 p k := funext fun a => Fin.ext (by
    match a with
    | ⟨0, _⟩ => exact l0 _ _
    | ⟨1, _⟩ => exact ((dot_S4000x32_S32x16_S4000x16_1_0_0_1_n_n.lhsIdx_val_of_single rfl _ _).trans hk))
  have er : dot_S4000x32_S32x16_S4000x16_1_0_0_1_n_n.rhsIdx (ix2 p q) ((ValueIdx.contrEquiv1 dot_S4000x32_S32x16_S4000x16_1_0_0_1_n_n 32 rfl rfl).symm k) = ix2 k q := funext fun a => Fin.ext (by
    match a with
    | ⟨0, _⟩ => exact ((dot_S4000x32_S32x16_S4000x16_1_0_0_1_n_n.rhsIdx_val_of_single rfl _ _).trans hk)
    | ⟨1, _⟩ => exact r1 _ _)
  rw [el, er]

/-- A [4000, 16] by [16, 1] matrix product into the zero accumulator, at row `p` and column `q`: the sum over `k` of
    the left factor at (p, k) times the right factor at (k, q). -/
theorem mm_4000_16_1 {φ₁ φ₂ : FTy} (l : FVec Ideal S4000x16 φ₁) (r : FVec Ideal S16x1 φ₂) (p : Fin 4000) (q : Fin 1) :
    matmul dot_S4000x16_S16x1_S4000x1_1_0_0_1_n_n none l r (constant (F := Ideal) S4000x1 .f32 0x00000000#32) (ix2 p q)
      = ∑ k : Fin 16, l (ix2 p k) * r (ix2 k q) := by
  refine (Ideal.matmul_constant_zero_apply dot_S4000x16_S16x1_S4000x1_1_0_0_1_n_n none l r (ix2 p q)).trans ?_
  rw [← Equiv.sum_comp (ValueIdx.contrEquiv1 dot_S4000x16_S16x1_S4000x1_1_0_0_1_n_n 16 rfl rfl).symm]
  refine Finset.sum_congr rfl fun k _ => ?_
  have hk := ValueIdx.contrEquiv1_symm_val dot_S4000x16_S16x1_S4000x1_1_0_0_1_n_n 16 rfl rfl k
  have l0 : ∀ (i : S4000x1.Idx) (u : dot_S4000x16_S16x1_S4000x1_1_0_0_1_n_n.contr.Idx), (dot_S4000x16_S16x1_S4000x1_1_0_0_1_n_n.lhsIdx i u 0).val = (i 0).val := fun i u => by
    unfold DotDims.lhsIdx
    rw [dif_neg (show ¬(0 : Fin S4000x16.rank) ∈ dot_S4000x16_S16x1_S4000x1_1_0_0_1_n_n.lhsBatch by decide), dif_pos (show (0 : Fin S4000x16.rank) ∈ dot_S4000x16_S16x1_S4000x1_1_0_0_1_n_n.lhsNonContracting by decide)]
    rfl
  have r1 : ∀ (i : S4000x1.Idx) (u : dot_S4000x16_S16x1_S4000x1_1_0_0_1_n_n.contr.Idx), (dot_S4000x16_S16x1_S4000x1_1_0_0_1_n_n.rhsIdx i u 1).val = (i 1).val := fun i u => by
    unfold DotDims.rhsIdx
    rw [dif_neg (show ¬(1 : Fin S16x1.rank) ∈ dot_S4000x16_S16x1_S4000x1_1_0_0_1_n_n.rhsBatch by decide), dif_pos (show (1 : Fin S16x1.rank) ∈ dot_S4000x16_S16x1_S4000x1_1_0_0_1_n_n.rhsNonContracting by decide)]
    rfl
  have el : dot_S4000x16_S16x1_S4000x1_1_0_0_1_n_n.lhsIdx (ix2 p q) ((ValueIdx.contrEquiv1 dot_S4000x16_S16x1_S4000x1_1_0_0_1_n_n 16 rfl rfl).symm k) = ix2 p k := funext fun a => Fin.ext (by
    match a with
    | ⟨0, _⟩ => exact l0 _ _
    | ⟨1, _⟩ => exact ((dot_S4000x16_S16x1_S4000x1_1_0_0_1_n_n.lhsIdx_val_of_single rfl _ _).trans hk))
  have er : dot_S4000x16_S16x1_S4000x1_1_0_0_1_n_n.rhsIdx (ix2 p q) ((ValueIdx.contrEquiv1 dot_S4000x16_S16x1_S4000x1_1_0_0_1_n_n 16 rfl rfl).symm k) = ix2 k q := funext fun a => Fin.ext (by
    match a with
    | ⟨0, _⟩ => exact ((dot_S4000x16_S16x1_S4000x1_1_0_0_1_n_n.rhsIdx_val_of_single rfl _ _).trans hk)
    | ⟨1, _⟩ => exact r1 _ _)
  rw [el, er]

/-! ## Broadcasts at an entry -/

/-- A column [5000, 1] spread over 64 columns, at (p, q), is the column's entry at row `p`. -/
theorem col_5000_64 {α : Type} (v : S5000x1.Idx → α) (p : Fin 5000) (q : Fin 64) :
    broadcastTo S5000x64 v broadcasts_S5000x1_S5000x64 (ix2 p q) = v (ix2 p 0) := by
  exact broadcastTo_apply v broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A column [4000, 1] spread over 64 columns, at (p, q), is the column's entry at row `p`. -/
theorem col_4000_64 {α : Type} (v : S4000x1.Idx → α) (p : Fin 4000) (q : Fin 64) :
    broadcastTo S4000x64 v broadcasts_S4000x1_S4000x64 (ix2 p q) = v (ix2 p 0) := by
  exact broadcastTo_apply v broadcasts_S4000x1_S4000x64 (ix2 p q) (ix2 p 0) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A vector of 64 entries laid as a row and repeated down 5000 rows, at (p, q), is the vector's entry `q`. -/
theorem row_5000_64 {α : Type} (v : S64.Idx → α) (p : Fin 5000) (q : Fin 64) :
    broadcastTo S5000x64 (shapeCast S1x64 v shapeCasts_S64_S1x64) broadcasts_S1x64_S5000x64 (ix2 p q) = v (ix1 q) := by
  rw [broadcastTo_apply (shapeCast S1x64 v shapeCasts_S64_S1x64) broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact shapeCast_apply v shapeCasts_S64_S1x64 (ix2 0 q) (ix1 q) (by
    simp only [Shape.rowMajor_val_one, Shape.rowMajor_val_two]; simp)

/-- A vector of 32 entries laid as a row and repeated down 4000 rows, at (p, q), is the vector's entry `q`. -/
theorem row_4000_32 {α : Type} (v : S32.Idx → α) (p : Fin 4000) (q : Fin 32) :
    broadcastTo S4000x32 (shapeCast S1x32 v shapeCasts_S32_S1x32) broadcasts_S1x32_S4000x32 (ix2 p q) = v (ix1 q) := by
  rw [broadcastTo_apply (shapeCast S1x32 v shapeCasts_S32_S1x32) broadcasts_S1x32_S4000x32 (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])]
  exact shapeCast_apply v shapeCasts_S32_S1x32 (ix2 0 q) (ix1 q) (by
    simp only [Shape.rowMajor_val_one, Shape.rowMajor_val_two]; simp)

/-- A vector of 16 entries laid as a row and repeated down 4000 rows, at (p, q), is the vector's entry `q`. -/
theorem row_4000_16 {α : Type} (v : S16.Idx → α) (p : Fin 4000) (q : Fin 16) :
    broadcastTo S4000x16 (shapeCast S1x16 v shapeCasts_S16_S1x16) broadcasts_S1x16_S4000x16 (ix2 p q) = v (ix1 q) := by
  rw [broadcastTo_apply (shapeCast S1x16 v shapeCasts_S16_S1x16) broadcasts_S1x16_S4000x16 (ix2 p q) (ix2 0 q) (fun a => match a with
    | ⟨0, _⟩ => by show 0 = if (1 : Nat) = 1 then 0 else p.val; rw [if_pos rfl]
    | ⟨1, _⟩ => by show q.val = if (16 : Nat) = 1 then 0 else q.val; rw [if_neg (by decide)])]
  exact shapeCast_apply v shapeCasts_S16_S1x16 (ix2 0 q) (ix1 q) (by
    simp only [Shape.rowMajor_val_one, Shape.rowMajor_val_two]; simp)

/-- A vector of 1 entries laid as a row and repeated down 4000 rows, at (p, q), is the vector's entry `q`. -/
theorem row_4000_1 {α : Type} (v : S1.Idx → α) (p : Fin 4000) (q : Fin 1) :
    broadcastTo S4000x1 (shapeCast S1x1 v shapeCasts_S1_S1x1) broadcasts_S1x1_S4000x1 (ix2 p q) = v (ix1 q) := by
  rw [broadcastTo_apply (shapeCast S1x1 v shapeCasts_S1_S1x1) broadcasts_S1x1_S4000x1 (ix2 p q) (ix2 0 q) (fun a => match a with
    | ⟨0, _⟩ => by show 0 = if (1 : Nat) = 1 then 0 else p.val; rw [if_pos rfl]
    | ⟨1, _⟩ => by show q.val = if (1 : Nat) = 1 then 0 else q.val; have := q.isLt; split <;> omega)]
  exact shapeCast_apply v shapeCasts_S1_S1x1 (ix2 0 q) (ix1 q) (by
    simp only [Shape.rowMajor_val_one, Shape.rowMajor_val_two]; simp)

/-! ## The bodies' stored values at an entry -/

/-- The first layer's stored value at (p, q). -/
theorem layer1_entry (x0 : Vec Ideal S5000x64 .f32) (x2 : Vec Ideal S5000x1 .f32) (x7 : Vec Ideal S5000x64 .f32)
    (x9 x11 : Vec Ideal S64x64 .f32) (x16 : Vec Ideal S64 .f32) (p : Fin 5000) (q : Fin 64) :
    k0_pay1 x0 x2 x7 x9 x11 x16 (ix2 p q)
      = max (byReciprocal (fun k => x0 (ix2 p k)) (x2 (ix2 p 0)) (fun k => x7 (ix2 p k)) (fun k => x9 (ix2 k q))
          (fun k => x11 (ix2 k q)) (x16 (ix1 q))) (Ideal.ofBits .f32 0x00000000#32) := by
  unfold k0_pay1 byReciprocal
  dsimp only
  rw [maximumf_apply, addf_apply, addf_apply, mm_5000_64_64, mm_5000_64_64, row_5000_64]
  simp only [truncf_apply, mulf_apply, col_5000_64, shapeCast_self]
  rfl

/-- The second layer's stored value at (p, q). -/
theorem layer2_entry (x0 : Vec Ideal S4000x64 .f32) (x2 : Vec Ideal S4000x1 .f32) (x7 : Vec Ideal S4000x64 .f32)
    (x10 x12 : Vec Ideal S64x32 .f32) (x17 : Vec Ideal S32 .f32) (p : Fin 4000) (q : Fin 32) :
    k1_pay2 x0 x2 x7 x10 x12 x17 (ix2 p q)
      = byReciprocal (fun k => x0 (ix2 p k)) (x2 (ix2 p 0)) (fun k => x7 (ix2 p k)) (fun k => x10 (ix2 k q))
          (fun k => x12 (ix2 k q)) (x17 (ix1 q)) := by
  unfold k1_pay2 byReciprocal
  dsimp only
  rw [addf_apply, addf_apply, mm_4000_64_32, mm_4000_64_32, row_4000_32]
  simp only [truncf_apply, mulf_apply, col_4000_64, shapeCast_self]

/-- The trust value stored at row `p` (its one column `q`): the trust head of the row of second-layer values. -/
theorem trust_entry (x0 : Vec Ideal S4000x64 .f32) (x2 : Vec Ideal S4000x1 .f32) (x7 : Vec Ideal S4000x64 .f32)
    (x10 x12 : Vec Ideal S64x32 .f32) (x17 : Vec Ideal S32 .f32) (x23 : Vec Ideal S32x16 .f32) (x26 : Vec Ideal S16 .f32)
    (x33 : Vec Ideal S16x1 .f32) (x36 : Vec Ideal S1 .f32) (p : Fin 4000) (q : Fin 1) :
    k1_pay1 (k1_pay3 x0 x2 x7 x10 x12 x17 x23 x26) (k1_pay4 x33) (constant (F := Ideal) S4000x1 .f32 0x00000000#32) x36 (ix2 p q)
      = trustHead (fun k' => k1_pay2 x0 x2 x7 x10 x12 x17 (ix2 p k')) (fun k' k => x23 (ix2 k' k)) (fun k => x26 (ix1 k))
          (fun k => x33 (ix2 k q)) (x36 (ix1 q)) := by
  unfold k1_pay1 k1_pay3 k1_pay4 trustHead
  dsimp only
  show Ideal.logistic _ = _
  refine congrArg Ideal.logistic ?_
  rw [addf_apply, mm_4000_16_1, row_4000_1]
  refine congrArg (· + x36 (ix1 q)) (Finset.sum_congr rfl fun k _ => ?_)
  rw [truncf_apply, truncf_apply, maximumf_apply, addf_apply, mm_4000_32_16, row_4000_16]
  simp only [truncf_apply]
  rfl

end Cert.KernelIdeal.Dense

end
-- ==== Proof.Blocks.lean ====
/-
  From blocks to arrays: what each kernel region leaves in its result arrays, as one function of the arrays
  the region finds.

  Both kernels walk the 100000 node rows in blocks (20 blocks of 5000 rows, 25 blocks of 4000 rows).  At grid
  point `t` the row-blocked windows all sit at block `t` and the weight and bias windows at block 0, so row `p` of
  point `t`'s block is node `t · rows + p`.  A body's stored value at (p, q) only reads row `p` of its row-blocked
  inputs, so what point `t` writes back is block `t` of ONE whole-array function of the input arrays: the layer
  formula at every node.  The blocks tile the rows, so the result array ends holding that function.
-/
import proofs.«134192_j80023830659561_2_alg».proof.Proof.Gen.KernelIdeal.Frame
import proofs.«134192_j80023830659561_2_alg».proof.Proof.Dense
import Idealize.ShloMosaic.Lib.Pipeline.Value

set_option maxRecDepth 16384

noncomputable section

namespace Cert.KernelIdeal.Blocks

open Cert.KernelIdeal Cert.KernelIdeal.Gen Cert.KernelIdeal.Dense Cert.SageMath
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The layer formulas at every node -/

/-- The first layer at node `r`, feature `q`: the positive part of the mean-aggregated affine map. -/
def layer1At (A X : Vec Ideal S100000x64 .f32) (I : Vec Ideal S100000x1 .f32) (Wl Wr : Vec Ideal S64x64 .f32)
    (b : Vec Ideal S64 .f32) (r : Fin 100000) (q : Fin 64) : EReal :=
  max (byReciprocal (fun k : Fin 64 => A (ix2 r k)) (I (ix2 r 0)) (fun k => X (ix2 r k)) (fun k => Wl (ix2 k q))
    (fun k => Wr (ix2 k q)) (b (ix1 q))) (Ideal.ofBits .f32 0x00000000#32)

/-- The first layer's result array. -/
def layer1 (A X : Vec Ideal S100000x64 .f32) (I : Vec Ideal S100000x1 .f32) (Wl Wr : Vec Ideal S64x64 .f32)
    (b : Vec Ideal S64 .f32) : Vec Ideal S100000x64 .f32 :=
  fun j => layer1At A X I Wl Wr b (j 0) (j 1)

/-- The second layer at node `r`, feature `q` (no activation). -/
def layer2At (A H : Vec Ideal S100000x64 .f32) (I : Vec Ideal S100000x1 .f32) (Wl Wr : Vec Ideal S64x32 .f32)
    (b : Vec Ideal S32 .f32) (r : Fin 100000) (q : Fin 32) : EReal :=
  byReciprocal (fun k : Fin 64 => A (ix2 r k)) (I (ix2 r 0)) (fun k => H (ix2 r k)) (fun k => Wl (ix2 k q))
    (fun k => Wr (ix2 k q)) (b (ix1 q))

/-- The second layer's result array. -/
def layer2 (A H : Vec Ideal S100000x64 .f32) (I : Vec Ideal S100000x1 .f32) (Wl Wr : Vec Ideal S64x32 .f32)
    (b : Vec Ideal S32 .f32) : Vec Ideal S100000x32 .f32 :=
  fun j => layer2At A H I Wl Wr b (j 0) (j 1)

/-- The trust value at node `r` (its one column `q`). -/
def trustAt (A H : Vec Ideal S100000x64 .f32) (I : Vec Ideal S100000x1 .f32) (Wl Wr : Vec Ideal S64x32 .f32)
    (b : Vec Ideal S32 .f32) (Wt1 : Vec Ideal S32x16 .f32) (bt1 : Vec Ideal S16 .f32) (Wt2 : Vec Ideal S16x1 .f32)
    (bt2 : Vec Ideal S1 .f32) (r : Fin 100000) (q : Fin 1) : EReal :=
  trustHead (fun k' => layer2At A H I Wl Wr b r k') (fun k' k => Wt1 (ix2 k' k)) (fun k => bt1 (ix1 k))
    (fun k => Wt2 (ix2 k q)) (bt2 (ix1 q))

/-- The trust result array. -/
def trust (A H : Vec Ideal S100000x64 .f32) (I : Vec Ideal S100000x1 .f32) (Wl Wr : Vec Ideal S64x32 .f32)
    (b : Vec Ideal S32 .f32) (Wt1 : Vec Ideal S32x16 .f32) (bt1 : Vec Ideal S16 .f32) (Wt2 : Vec Ideal S16x1 .f32)
    (bt2 : Vec Ideal S1 .f32) : Vec Ideal S100000x1 .f32 :=
  fun j => trustAt A H I Wl Wr b Wt1 bt1 Wt2 bt2 (j 0) (j 1)

/-! ## A block's stored values are the formulas at the block's nodes (over any block contents that are rows of the arrays) -/

theorem block_layer1 (A X : Vec Ideal S100000x64 .f32) (I : Vec Ideal S100000x1 .f32) (Wl Wr : Vec Ideal S64x64 .f32)
    (b : Vec Ideal S64 .f32) (x0 x1 : Vec Ideal S5000x64 .f32) (x2 : Vec Ideal S5000x1 .f32) (x3 x4 : Vec Ideal S64x64 .f32)
    (x5 : Vec Ideal S64 .f32) (y : S5000x64.Idx) (j : S100000x64.Idx) (p : Fin 5000) (q : Fin 64) (r : Fin 100000)
    (hy : y = ix2 p q) (hj : j = ix2 r q)
    (h0 : ∀ k : Fin 64, x0 (ix2 p k) = A (ix2 r k)) (h1 : ∀ k : Fin 64, x1 (ix2 p k) = X (ix2 r k))
    (h2 : x2 (ix2 p 0) = I (ix2 r 0)) (h3 : x3 = Wl) (h4 : x4 = Wr) (h5 : x5 = b) :
    k0_pay1 x0 x2 x1 x3 x4 x5 y = layer1 A X I Wl Wr b j := by
  subst hy hj h3 h4 h5
  rw [layer1_entry]
  show _ = layer1At A X I x3 x4 x5 r q
  unfold layer1At
  simp only [h0, h1, h2]

/-! ## The first region -/

section Region0
variable (V : (c : Dev nD) → (b : Ref sig .tc) → Buf (Elt Ideal) ((c : Thread nD τ).loc b))

/-- Where the first kernel's windows sit at grid point `t`: the row-blocked ones at block `t`, the others at block 0. -/
theorem where0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point `t` writes back is block `t` of the first layer's formula over the arrays the region finds. -/
theorem flushed0 (c : Dev nD) (t : Fin cfg0.N) :
    (dat0 V c).flushed 6 t = ((cfg0.win 6).blk t).view.read (Elt Ideal)
      (layer1 (V c main_v22) (V c main_arg0) (V c main_v12) (V c main_arg2) (V c main_arg3) (V c main_arg4)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S5000x1) hz2, View.ld_unit_zero (S := S64x64) hz2,
    View.ld_unit_zero (S := S64) hz1]
  obtain ⟨e00, e01, e10, e11, e20, e21, e30, e31, e40, e41, e50, e60, e61⟩ := where0 t
  have hN : cfg0.N = 20 := N_0
  have ht : t.val < 20 := hN ▸ t.isLt
  funext y
  have hp : (y 0).val < 5000 := (y 0).isLt
  have hq : (y 1).val < 64 := (y 1).isLt
  show k0_pay1 (iblk0 V c 0 t) (iblk0 V c 2 t) (iblk0 V c 1 t) (iblk0 V c 3 t) (iblk0 V c 4 t) (iblk0 V c 5 t) y
    = layer1 (V c main_v22) (V c main_arg0) (V c main_v12) (V c main_arg2) (V c main_arg3) (V c main_arg4) (((cfg0.win 6).blk t).view.emb y)
  refine block_layer1 (V c main_v22) (V c main_arg0) (V c main_v12) (V c main_arg2) (V c main_arg3) (V c main_arg4)
    (iblk0 V c 0 t) (iblk0 V c 1 t) (iblk0 V c 2 t) (iblk0 V c 3 t) (iblk0 V c 4 t) (iblk0 V c 5 t) y (((cfg0.win 6).blk t).view.emb y)
    ⟨(y 0).val, hp⟩ ⟨(y 1).val, hq⟩ ⟨t.val * 5000 + (y 0).val, by omega⟩ ?_ ?_ ?_ ?_ ?_ ?_ ?_ ?_
  · funext a; match a with | ⟨0, _⟩ => rfl | ⟨1, _⟩ => rfl
  · funext a; apply Fin.ext
    match a with
    | ⟨0, _⟩ => show win0_6.index t (0 : Fin 2) * 5000 + 1 * (y 0).val = t.val * 5000 + (y 0).val; omega
    | ⟨1, _⟩ => show win0_6.index t (1 : Fin 2) * 64 + 1 * (y 1).val = (y 1).val; omega
  · intro k
    show V c main_v22 (((cfg0.win 0).blk t).view.emb (ix2 ⟨(y 0).val, hp⟩ k)) = _
    refine congrArg (V c main_v22) (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 64 + 1 * k.val = k.val; omega
  · intro k
    show V c main_arg0 (((cfg0.win 1).blk t).view.emb (ix2 ⟨(y 0).val, hp⟩ k)) = _
    refine congrArg (V c main_arg0) (funext fun a => Fin.ext ?_)
    match a with
    | ⟨0, _⟩ => show win0_1.index t (0 : Fin 2) * 5000 + 1 * (y 0).val = t.val * 5000 + (y 0).val; omega
    | ⟨1, _⟩ => show win0_1.index t (1 : Fin 2) * 64 + 1 * k.val = k.val; omega
  · show V c main_v12 (((cfg0.win 2).blk t).view.emb (ix2 ⟨(y 0).val, hp⟩ 0)) = _
    refine congrArg (V c main_v12) (funext fun a => Fin.ext ?_)
    match a with
    | ⟨0, _⟩ => show win0_2.index t (0 : Fin 2) * 5000 + 1 * (y 0).val = t.val * 5000 + (y 0).val; omega
    | ⟨1, _⟩ => show win0_2.index t (1 : Fin 2) * 1 + 1 * 0 = 0; omega
  · funext i
    show V c main_arg2 (((cfg0.win 3).blk t).view.emb i) = V c main_arg2 i
    refine congrArg (V c main_arg2) (funext fun a => Fin.ext ?_)
    match a with
    | ⟨0, _⟩ => show win0_3.index t (0 : Fin 2) * 64 + 1 * (i 0).val = (i 0).val; omega
    | ⟨1, _⟩ => show win0_3.index t (1 : Fin 2) * 64 + 1 * (i 1).val = (i 1).val; omega
  · funext i
    show V c main_arg3 (((cfg0.win 4).blk t).view.emb i) = V c main_arg3 i
    refine congrArg (V c main_arg3) (funext fun a => Fin.ext ?_)
    match a with
    | ⟨0, _⟩ => show win0_4.index t (0 : Fin 2) * 64 + 1 * (i 0).val = (i 0).val; omega
    | ⟨1, _⟩ => show win0_4.index t (1 : Fin 2) * 64 + 1 * (i 1).val = (i 1).val; omega
  · funext i
    show V c main_arg4 (((cfg0.win 5).blk t).view.emb i) = V c main_arg4 i
    refine congrArg (V c main_arg4) (funext fun a => Fin.ext ?_)
    match a with
    | ⟨0, _⟩ => show win0_5.index t (0 : Fin 1) * 64 + 1 * (i 0).val = (i 0).val; omega

/-- Every node row lies in some point's block: row `r` in block `r / 5000`. -/
theorem cover0 (i : S100000x64.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨e00, e01, e10, e11, e20, e21, e30, e31, e40, e41, e50, e60, e61⟩ := where0 t
  have ht : t.val = (i 0).val / 5000 := rfl
  refine ⟨t, flush0_6 t, ?_⟩
  show i ∈ ((View.whole main_v23).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The first region's result array ends holding the first layer's formula over the arrays the region finds. -/
theorem final0 (c : Dev nD) : (dat0 V c).arrAt 6 cfg0.N
    = layer1 (V c main_v22) (V c main_arg0) (V c main_v12) (V c main_arg2) (V c main_arg3) (V c main_arg4) :=
  (dat0 V c).arrAt_eq_of_cover 6 _ (fun t _ => flushed0 V c t) cover0

end Region0

/-! ## The second region -/

theorem block_layer2 (A H : Vec Ideal S100000x64 .f32) (I : Vec Ideal S100000x1 .f32) (Wl Wr : Vec Ideal S64x32 .f32)
    (b : Vec Ideal S32 .f32) (x0 x1 : Vec Ideal S4000x64 .f32) (x2 : Vec Ideal S4000x1 .f32) (x3 x4 : Vec Ideal S64x32 .f32)
    (x5 : Vec Ideal S32 .f32) (y : S4000x32.Idx) (j : S100000x32.Idx) (p : Fin 4000) (q : Fin 32) (r : Fin 100000)
    (hy : y = ix2 p q) (hj : j = ix2 r q)
    (h0 : ∀ k : Fin 64, x0 (ix2 p k) = A (ix2 r k)) (h1 : ∀ k : Fin 64, x1 (ix2 p k) = H (ix2 r k))
    (h2 : x2 (ix2 p 0) = I (ix2 r 0)) (h3 : x3 = Wl) (h4 : x4 = Wr) (h5 : x5 = b) :
    k1_pay2 x0 x2 x1 x3 x4 x5 y = layer2 A H I Wl Wr b j := by
  subst hy hj h3 h4 h5
  rw [layer2_entry]
  show _ = layer2At A H I x3 x4 x5 r q
  unfold layer2At
  simp only [h0, h1, h2]

theorem block_trust (A H : Vec Ideal S100000x64 .f32) (I : Vec Ideal S100000x1 .f32) (Wl Wr : Vec Ideal S64x32 .f32)
    (b : Vec Ideal S32 .f32) (Wt1 : Vec Ideal S32x16 .f32) (bt1 : Vec Ideal S16 .f32) (Wt2 : Vec Ideal S16x1 .f32)
    (bt2 : Vec Ideal S1 .f32) (x0 x1 : Vec Ideal S4000x64 .f32) (x2 : Vec Ideal S4000x1 .f32) (x3 x4 : Vec Ideal S64x32 .f32)
    (x5 : Vec Ideal S32 .f32) (x6 : Vec Ideal S32x16 .f32) (x7 : Vec Ideal S16 .f32) (x8 : Vec Ideal S16x1 .f32)
    (x9 : Vec Ideal S1 .f32) (y : S4000x1.Idx) (j : S100000x1.Idx) (p : Fin 4000) (q : Fin 1) (r : Fin 100000)
    (hy : y = ix2 p q) (hj : j = ix2 r q)
    (h0 : ∀ k : Fin 64, x0 (ix2 p k) = A (ix2 r k)) (h1 : ∀ k : Fin 64, x1 (ix2 p k) = H (ix2 r k))
    (h2 : x2 (ix2 p 0) = I (ix2 r 0)) (h3 : x3 = Wl) (h4 : x4 = Wr) (h5 : x5 = b) (h6 : x6 = Wt1) (h7 : x7 = bt1)
    (h8 : x8 = Wt2) (h9 : x9 = bt2) :
    k1_pay1 (k1_pay3 x0 x2 x1 x3 x4 x5 x6 x7) (k1_pay4 x8) (constant (F := Ideal) S4000x1 .f32 0x00000000#32) x9 y
      = trust A H I Wl Wr b Wt1 bt1 Wt2 bt2 j := by
  subst hy hj h3 h4 h5 h6 h7 h8 h9
  rw [trust_entry]
  show _ = trustAt A H I x3 x4 x5 x6 x7 x8 x9 r q
  unfold trustAt layer2At
  simp only [layer2_entry, h0, h1, h2]

section Region1
variable (V : (c : Dev nD) → (b : Ref sig .tc) → Buf (Elt Ideal) ((c : Thread nD τ).loc b))

/-- Where the second kernel's windows sit at grid point `t`. -/
theorem where1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- What point `t` writes back to the second layer's array is block `t` of the second layer's formula. -/
theorem flushed1_h (c : Dev nD) (t : Fin cfg1.N) :
    (dat1 V c).flushed 10 t = ((cfg1.win 10).blk t).view.read (Elt Ideal) (layer2 (V c main_v33) (V c main_v23) (V c main_v12) (V c main_arg5) (V c main_arg6) (V c main_arg7)) := by
  show (cfg1.win 10).cut (grid1.coords t) ((dat1 V c).after 10 t) = _
  rw [after1_10]
  unfold out1_10
  rw [View.canon_unit_zero hz2]
  simp only [View.ld_unit_zero (S := S4000x64) hz2, View.ld_unit_zero (S := S4000x1) hz2, View.ld_unit_zero (S := S64x32) hz2,
    View.ld_unit_zero (S := S32) hz1]
  obtain ⟨e00, e01, e10, e11, e20, e21, e30, e31, e40, e41, e50, e60, e61, e70, e80, e81, e90, ea0, ea1, eb0, eb1⟩ := where1 t
  have hN : cfg1.N = 25 := N_1
  have ht : t.val < 25 := hN ▸ t.isLt
  funext y
  have hp : (y 0).val < 4000 := (y 0).isLt
  have hq : (y 1).val < 32 := (y 1).isLt
  show k1_pay2 (iblk1 V c 0 t) (iblk1 V c 2 t) (iblk1 V c 1 t) (iblk1 V c 3 t) (iblk1 V c 4 t) (iblk1 V c 5 t) y
    = layer2 (V c main_v33) (V c main_v23) (V c main_v12) (V c main_arg5) (V c main_arg6) (V c main_arg7) (((cfg1.win 10).blk t).view.emb y)
  refine block_layer2 (V c main_v33) (V c main_v23) (V c main_v12) (V c main_arg5) (V c main_arg6) (V c main_arg7)
    (iblk1 V c 0 t) (iblk1 V c 1 t) (iblk1 V c 2 t) (iblk1 V c 3 t) (iblk1 V c 4 t) (iblk1 V c 5 t) y (((cfg1.win 10).blk t).view.emb y)
    ⟨(y 0).val, hp⟩ ⟨(y 1).val, hq⟩ ⟨t.val * 4000 + (y 0).val, by omega⟩ ?_ ?_ ?_ ?_ ?_ ?_ ?_ ?_
  · funext a; match a with | ⟨0, _⟩ => rfl | ⟨1, _⟩ => rfl
  · funext a; apply Fin.ext
    match a with
    | ⟨0, _⟩ => show win1_10.index t (0 : Fin 2) * 4000 + 1 * (y 0).val = t.val * 4000 + (y 0).val; omega
    | ⟨1, _⟩ => show win1_10.index t (1 : Fin 2) * 32 + 1 * (y 1).val = (y 1).val; omega
  · intro k
    show V c main_v33 (((cfg1.win 0).blk t).view.emb (ix2 ⟨(y 0).val, hp⟩ k)) = _
    refine congrArg (V c main_v33) (funext fun a => Fin.ext ?_)
    match a with
    | ⟨0, _⟩ => show win1_0.index t (0 : Fin 2) * 4000 + 1 * (y 0).val = t.val * 4000 + (y 0).val; omega
    | ⟨1, _⟩ => show win1_0.index t (1 : Fin 2) * 64 + 1 * k.val = k.val; omega
  · intro k
    show V c main_v23 (((cfg1.win 1).blk t).view.emb (ix2 ⟨(y 0).val, hp⟩ k)) = _
    refine congrArg (V c main_v23) (funext fun a => Fin.ext ?_)
    match a with
    | ⟨0, _⟩ => show win1_1.index t (0 : Fin 2) * 4000 + 1 * (y 0).val = t.val * 4000 + (y 0).val; omega
    | ⟨1, _⟩ => show win1_1.index t (1 : Fin 2) * 64 + 1 * k.val = k.val; omega
  · show V c main_v12 (((cfg1.win 2).blk t).view.emb (ix2 ⟨(y 0).val, hp⟩ 0)) = _
    refine congrArg (V c main_v12) (funext fun a => Fin.ext ?_)
    match a with
    | ⟨0, _⟩ => show win1_2.index t (0 : Fin 2) * 4000 + 1 * (y 0).val = t.val * 4000 + (y 0).val; omega
    | ⟨1, _⟩ => show win1_2.index t (1 : Fin 2) * 1 + 1 * 0 = 0; omega
  · funext i
    show V c main_arg5 (((cfg1.win 3).blk t).view.emb i) = V c main_arg5 i
    refine congrArg (V c main_arg5) (funext fun a => Fin.ext ?_)
    match a with
    | ⟨0, _⟩ => show win1_3.index t (0 : Fin 2) * 64 + 1 * (i 0).val = (i 0).val; omega
    | ⟨1, _⟩ => show win1_3.index t (1 : Fin 2) * 32 + 1 * (i 1).val = (i 1).val; omega
  · funext i
    show V c main_arg6 (((cfg1.win 4).blk t).view.emb i) = V c main_arg6 i
    refine congrArg (V c main_arg6) (funext fun a => Fin.ext ?_)
    match a with
    | ⟨0, _⟩ => show win1_4.index t (0 : Fin 2) * 64 + 1 * (i 0).val = (i 0).val; omega
    | ⟨1, _⟩ => show win1_4.index t (1 : Fin 2) * 32 + 1 * (i 1).val = (i 1).val; omega
  · funext i
    show V c main_arg7 (((cfg1.win 5).blk t).view.emb i) = V c main_arg7 i
    refine congrArg (V c main_arg7) (funext fun a => Fin.ext ?_)
    match a with
    | ⟨0, _⟩ => show win1_5.index t (0 : Fin 1) * 32 + 1 * (i 0).val = (i 0).val; omega

/-- What point `t` writes back to the trust array is block `t` of the trust formula. -/
theorem flushed1_t (c : Dev nD) (t : Fin cfg1.N) :
    (dat1 V c).flushed 11 t = ((cfg1.win 11).blk t).view.read (Elt Ideal) (trust (V c main_v33) (V c main_v23) (V c main_v12) (V c main_arg5) (V c main_arg6) (V c main_arg7) (V c main_arg8) (V c main_arg9) (V c main_arg10) (V c main_arg11)) := by
  show (cfg1.win 11).cut (grid1.coords t) ((dat1 V c).after 11 t) = _
  rw [after1_11]
  unfold out1_11
  rw [View.canon_unit_zero hz2]
  simp only [View.ld_unit_zero (S := S4000x64) hz2, View.ld_unit_zero (S := S4000x1) hz2, View.ld_unit_zero (S := S64x32) hz2,
    View.ld_unit_zero (S := S32) hz1, View.ld_unit_zero (S := S32x16) hz2, View.ld_unit_zero (S := S16) hz1,
    View.ld_unit_zero (S := S16x1) hz2, View.ld_unit_zero (S := S1) hz1]
  obtain ⟨e00, e01, e10, e11, e20, e21, e30, e31, e40, e41, e50, e60, e61, e70, e80, e81, e90, ea0, ea1, eb0, eb1⟩ := where1 t
  have hN : cfg1.N = 25 := N_1
  have ht : t.val < 25 := hN ▸ t.isLt
  funext y
  have hp : (y 0).val < 4000 := (y 0).isLt
  have hq : (y 1).val < 1 := (y 1).isLt
  show k1_pay1 (k1_pay3 (iblk1 V c 0 t) (iblk1 V c 2 t) (iblk1 V c 1 t) (iblk1 V c 3 t) (iblk1 V c 4 t) (iblk1 V c 5 t) (iblk1 V c 6 t) (iblk1 V c 7 t))
      (k1_pay4 (iblk1 V c 8 t)) (constant (F := Ideal) S4000x1 .f32 0x00000000#32) (iblk1 V c 9 t) y
    = trust (V c main_v33) (V c main_v23) (V c main_v12) (V c main_arg5) (V c main_arg6) (V c main_arg7) (V c main_arg8) (V c main_arg9) (V c main_arg10) (V c main_arg11) (((cfg1.win 11).blk t).view.emb y)
  refine block_trust (V c main_v33) (V c main_v23) (V c main_v12) (V c main_arg5) (V c main_arg6) (V c main_arg7) (V c main_arg8) (V c main_arg9) (V c main_arg10) (V c main_arg11)
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) y (((cfg1.win 11).blk t).view.emb y)
    ⟨(y 0).val, hp⟩ ⟨(y 1).val, hq⟩ ⟨t.val * 4000 + (y 0).val, by omega⟩ ?_ ?_ ?_ ?_ ?_ ?_ ?_ ?_ ?_ ?_ ?_ ?_
  · funext a; match a with | ⟨0, _⟩ => rfl | ⟨1, _⟩ => rfl
  · funext a; apply Fin.ext
    match a with
    | ⟨0, _⟩ => show win1_11.index t (0 : Fin 2) * 4000 + 1 * (y 0).val = t.val * 4000 + (y 0).val; omega
    | ⟨1, _⟩ => show win1_11.index t (1 : Fin 2) * 1 + 1 * (y 1).val = (y 1).val; omega
  · intro k
    show V c main_v33 (((cfg1.win 0).blk t).view.emb (ix2 ⟨(y 0).val, hp⟩ k)) = _
    refine congrArg (V c main_v33) (funext fun a => Fin.ext ?_)
    match a with
    | ⟨0, _⟩ => show win1_0.index t (0 : Fin 2) * 4000 + 1 * (y 0).val = t.val * 4000 + (y 0).val; omega
    | ⟨1, _⟩ => show win1_0.index t (1 : Fin 2) * 64 + 1 * k.val = k.val; omega
  · intro k
    show V c main_v23 (((cfg1.win 1).blk t).view.emb (ix2 ⟨(y 0).val, hp⟩ k)) = _
    refine congrArg (V c main_v23) (funext fun a => Fin.ext ?_)
    match a with
    | ⟨0, _⟩ => show win1_1.index t (0 : Fin 2) * 4000 + 1 * (y 0).val = t.val * 4000 + (y 0).val; omega
    | ⟨1, _⟩ => show win1_1.index t (1 : Fin 2) * 64 + 1 * k.val = k.val; omega
  · show V c main_v12 (((cfg1.win 2).blk t).view.emb (ix2 ⟨(y 0).val, hp⟩ 0)) = _
    refine congrArg (V c main_v12) (funext fun a => Fin.ext ?_)
    match a with
    | ⟨0, _⟩ => show win1_2.index t (0 : Fin 2) * 4000 + 1 * (y 0).val = t.val * 4000 + (y 0).val; omega
    | ⟨1, _⟩ => show win1_2.index t (1 : Fin 2) * 1 + 1 * 0 = 0; omega
  · funext i
    show V c main_arg5 (((cfg1.win 3).blk t).view.emb i) = V c main_arg5 i
    refine congrArg (V c main_arg5) (funext fun a => Fin.ext ?_)
    match a with
    | ⟨0, _⟩ => show win1_3.index t (0 : Fin 2) * 64 + 1 * (i 0).val = (i 0).val; omega
    | ⟨1, _⟩ => show win1_3.index t (1 : Fin 2) * 32 + 1 * (i 1).val = (i 1).val; omega
  · funext i
    show V c main_arg6 (((cfg1.win 4).blk t).view.emb i) = V c main_arg6 i
    refine congrArg (V c main_arg6) (funext fun a => Fin.ext ?_)
    match a with
    | ⟨0, _⟩ => show win1_4.index t (0 : Fin 2) * 64 + 1 * (i 0).val = (i 0).val; omega
    | ⟨1, _⟩ => show win1_4.index t (1 : Fin 2) * 32 + 1 * (i 1).val = (i 1).val; omega
  · funext i
    show V c main_arg7 (((cfg1.win 5).blk t).view.emb i) = V c main_arg7 i
    refine congrArg (V c main_arg7) (funext fun a => Fin.ext ?_)
    match a with
    | ⟨0, _⟩ => show win1_5.index t (0 : Fin 1) * 32 + 1 * (i 0).val = (i 0).val; omega
  · funext i
    show V c main_arg8 (((cfg1.win 6).blk t).view.emb i) = V c main_arg8 i
    refine congrArg (V c main_arg8) (funext fun a => Fin.ext ?_)
    match a with
    | ⟨0, _⟩ => show win1_6.index t (0 : Fin 2) * 32 + 1 * (i 0).val = (i 0).val; omega
    | ⟨1, _⟩ => show win1_6.index t (1 : Fin 2) * 16 + 1 * (i 1).val = (i 1).val; omega
  · funext i
    show V c main_arg9 (((cfg1.win 7).blk t).view.emb i) = V c main_arg9 i
    refine congrArg (V c main_arg9) (funext fun a => Fin.ext ?_)
    match a with
    | ⟨0, _⟩ => show win1_7.index t (0 : Fin 1) * 16 + 1 * (i 0).val = (i 0).val; omega
  · funext i
    show V c main_arg10 (((cfg1.win 8).blk t).view.emb i) = V c main_arg10 i
    refine congrArg (V c main_arg10) (funext fun a => Fin.ext ?_)
    match a with
    | ⟨0, _⟩ => show win1_8.index t (0 : Fin 2) * 16 + 1 * (i 0).val = (i 0).val; omega
    | ⟨1, _⟩ => show win1_8.index t (1 : Fin 2) * 1 + 1 * (i 1).val = (i 1).val; omega
  · funext i
    show V c main_arg11 (((cfg1.win 9).blk t).view.emb i) = V c main_arg11 i
    refine congrArg (V c main_arg11) (funext fun a => Fin.ext ?_)
    match a with
    | ⟨0, _⟩ => show win1_9.index t (0 : Fin 1) * 1 + 1 * (i 0).val = (i 0).val; omega

/-- Every node row lies in some point's block of the second layer's array: row `r` in block `r / 4000`. -/
theorem cover1_h (i : S100000x32.Idx) : ∃ t : Fin cfg1.N, (cfg1.win 10).flush t = true ∧ i ∈ ((cfg1.win 10).blk t).view.set := by
  have hN : cfg1.N = 25 := N_1
  have hi0 : (i 0).val < 100000 := (i 0).isLt
  have hi1 : (i 1).val < 32 := (i 1).isLt
  let t : Fin cfg1.N := ⟨(i 0).val / 4000, by rw [hN]; omega⟩
  obtain ⟨e00, e01, e10, e11, e20, e21, e30, e31, e40, e41, e50, e60, e61, e70, e80, e81, e90, ea0, ea1, eb0, eb1⟩ := where1 t
  have ht : t.val = (i 0).val / 4000 := rfl
  refine ⟨t, flush1_10 t, ?_⟩
  show i ∈ ((View.whole main_v34_0).slice (win1_10.rect t)).set
  rw [View.set_slice_whole, Rect.mem_set_unit]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 32 ≤ (i 1).val ∧ (i 1).val < win1_10.index t (1 : Fin 2) * 32 + 32; omega

/-- The same for the trust array. -/
theorem cover1_t (i : S100000x1.Idx) : ∃ t : Fin cfg1.N, (cfg1.win 11).flush t = true ∧ i ∈ ((cfg1.win 11).blk t).view.set := by
  have hN : cfg1.N = 25 := N_1
  have hi0 : (i 0).val < 100000 := (i 0).isLt
  have hi1 : (i 1).val < 1 := (i 1).isLt
  let t : Fin cfg1.N := ⟨(i 0).val / 4000, by rw [hN]; omega⟩
  obtain ⟨e00, e01, e10, e11, e20, e21, e30, e31, e40, e41, e50, e60, e61, e70, e80, e81, e90, ea0, ea1, eb0, eb1⟩ := where1 t
  have ht : t.val = (i 0).val / 4000 := rfl
  refine ⟨t, flush1_11 t, ?_⟩
  show i ∈ ((View.whole main_v34_1).slice (win1_11.rect t)).set
  rw [View.set_slice_whole, Rect.mem_set_unit]
  intro a
  match a with
  | ⟨0, _⟩ => show win1_11.index t (0 : Fin 2) * 4000 ≤ (i 0).val ∧ (i 0).val < win1_11.index t (0 : Fin 2) * 4000 + 4000; omega
  | ⟨1, _⟩ => show win1_11.index t (1 : Fin 2) * 1 ≤ (i 1).val ∧ (i 1).val < win1_11.index t (1 : Fin 2) * 1 + 1; omega

/-- The second region's two result arrays end holding the second layer's and the trust formulas over the arrays the region finds. -/
theorem final1_h (c : Dev nD) : (dat1 V c).arrAt 10 cfg1.N = layer2 (V c main_v33) (V c main_v23) (V c main_v12) (V c main_arg5) (V c main_arg6) (V c main_arg7) :=
  (dat1 V c).arrAt_eq_of_cover 10 _ (fun t _ => flushed1_h V c t) cover1_h

theorem final1_t (c : Dev nD) : (dat1 V c).arrAt 11 cfg1.N = trust (V c main_v33) (V c main_v23) (V c main_v12) (V c main_arg5) (V c main_arg6) (V c main_arg7) (V c main_arg8) (V c main_arg9) (V c main_arg10) (V c main_arg11) :=
  (dat1 V c).arrAt_eq_of_cover 11 _ (fun t _ => flushed1_t V c t) cover1_t

end Region1

end Cert.KernelIdeal.Blocks

end
-- ==== Proof.Results.lean ====
/-
  The idealized kernel program's two results as functions of its arguments.

  With `ei` the edge list and `x` the node features, the program's first kernel leaves
      h₁ = layer1 (aggSum ei x) x (invDeg ei) Wl₁ Wr₁ b₁,
  the host then gathers and scatter-adds h₁ along the same edges, and the second kernel leaves
      h₂    = layer2 (aggSum ei h₁) h₁ (invDeg ei) Wl₂ Wr₂ b₂   and
      trust = the trust head of h₂'s rows.
  This module chains the contents of the arrays each region finds, the block-to-array reading of each region and
  the run of the whole program into that statement.
-/
import proofs.«134192_j80023830659561_2_alg».proof.Proof.WholeRun
import proofs.«134192_j80023830659561_2_alg».proof.Proof.Stages
import proofs.«134192_j80023830659561_2_alg».proof.Proof.Blocks

set_option maxRecDepth 16384

noncomputable section

namespace Cert.KernelIdeal.Results

open Cert.KernelIdeal Cert.KernelIdeal.Gen Cert.KernelIdeal.Stages Cert.KernelIdeal.Blocks
open Idealize.ShloMosaic Idealize.ShloMosaic.TcCoe Idealize.SL.Sem
open Idealize.ShloMosaic.Pipeline (Dat)

/-- The first layer's node features, from the arguments. -/
def hidden1 (ei : (⟨S2x1600000, .i32⟩ : BufTy).Contents (Elt Ideal)) (x : Vec Ideal S100000x64 .f32)
    (Wl1 Wr1 : Vec Ideal S64x64 .f32) (b1 : Vec Ideal S64 .f32) : Vec Ideal S100000x64 .f32 :=
  layer1 (aggSum ei x) x (invDeg ei) Wl1 Wr1 b1

/-- The second layer's node features (the first result), from the arguments. -/
def hidden2 (ei : (⟨S2x1600000, .i32⟩ : BufTy).Contents (Elt Ideal)) (x : Vec Ideal S100000x64 .f32)
    (Wl1 Wr1 : Vec Ideal S64x64 .f32) (b1 : Vec Ideal S64 .f32) (Wl2 Wr2 : Vec Ideal S64x32 .f32) (b2 : Vec Ideal S32 .f32) :
    Vec Ideal S100000x32 .f32 :=
  layer2 (aggSum ei (hidden1 ei x Wl1 Wr1 b1)) (hidden1 ei x Wl1 Wr1 b1) (invDeg ei) Wl2 Wr2 b2

/-- The trust scores (the second result), from the arguments. -/
def trustOut (ei : (⟨S2x1600000, .i32⟩ : BufTy).Contents (Elt Ideal)) (x : Vec Ideal S100000x64 .f32)
    (Wl1 Wr1 : Vec Ideal S64x64 .f32) (b1 : Vec Ideal S64 .f32) (Wl2 Wr2 : Vec Ideal S64x32 .f32) (b2 : Vec Ideal S32 .f32)
    (Wt1 : Vec Ideal S32x16 .f32) (bt1 : Vec Ideal S16 .f32) (Wt2 : Vec Ideal S16x1 .f32) (bt2 : Vec Ideal S1 .f32) :
    Vec Ideal S100000x1 .f32 :=
  trust (aggSum ei (hidden1 ei x Wl1 Wr1 b1)) (hidden1 ei x Wl1 Wr1 b1) (invDeg ei) Wl2 Wr2 b2 Wt1 bt1 Wt2 bt2

variable (m : (ℓ : Loc nD τ sig) → Buf (Elt Ideal) ℓ) (ρ : Dev nD → PrngReg)

/-- What the first region leaves in its result array. -/
theorem hidden_eq (c : Dev nD) : hidden m ρ c = hidden1 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) := by
  refine ((W2_arr m ρ c 6).trans (final0 (V1 m ρ) c)).trans ?_
  rw [enter0_agg, enter0_arg0, enter0_inv, enter0_arg2, enter0_arg3, enter0_arg4]
  rfl

/-- What the second region leaves in its first result array. -/
theorem result_h (c : Dev nD) : W4 m ρ c (Proc.devRef .tc main_v34_0)
    = hidden2 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W4_arr m ρ c 10).trans (final1_h (V3 m ρ) c)).trans ?_
  rw [enter1_agg, enter1_hidden, enter1_inv, enter1_arg5, enter1_arg6, enter1_arg7, hidden_eq]
  rfl

/-- What the second region leaves in its second result array. -/
theorem result_t (c : Dev nD) : W4 m ρ c (Proc.devRef .tc main_v34_1)
    = trustOut (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((W4_arr m ρ c 11).trans (final1_t (V3 m ρ) c)).trans ?_
  rw [enter1_agg, enter1_hidden, enter1_inv, enter1_arg5, enter1_arg6, enter1_arg7, enter1_arg8, enter1_arg9, enter1_arg10,
    enter1_arg11, hidden_eq]
  rfl

/-- The run of the idealized kernel program: both results at their functions of the arguments, the arguments unchanged. -/
theorem run : θ_run defs (onTc (τ := τ) (main (F := Ideal))) ⟨m, fun _ => 0, ρ⟩ (fun r => ∀ c : Dev nD,
      r.2.mem ((c.tc : Thread nD τ).loc main_v34_0) = hidden2 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v34_1) = trustOut (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_h m ρ c), (h c).2.1.trans (result_t m ρ c), (h c).2.2⟩)
    (Cert.KernelIdeal.WholeRun.run_results m ρ)

end Cert.KernelIdeal.Results

end
-- ==== Proof.Degree.lean ====
/-
  The reciprocal-degree column, read at a node.

  `recipCol d` at node `r` is `1 / d r` (the quotient of the extended reals), and `atLeastOne d` at any node is the
  larger of `d r` and one, hence never zero.
-/
import proofs.«134192_j80023830659561_2_alg».proof.Proof.Stages
import proofs.«134192_j80023830659561_2_alg».proof.Proof.SageMath
import Idealize.ShloMosaic.Lib.Pipeline.Value
import Idealize.ShloMosaic.Lib.ValueIdx

set_option maxRecDepth 16384

noncomputable section

namespace Cert.KernelIdeal.Stages

open Cert.KernelIdeal Cert.KernelIdeal.Gen Cert.SageMath
open Idealize.ShloMosaic Idealize.ShloMosaic.ValueIdx

/-- The splat of one, at a node, is one. -/
theorem one_at (r : Fin 100000) :
    broadcastInDim S100000 ![] bcast_S_S100000 (constant (F := Ideal) S_ .f32 0x3F800000#32) (ix1 r) = (1 : EReal) := by
  rw [broadcastInDim_apply _ _ _ (ix1 r) ix0 (fun a => a.elim0)]
  exact ofBits_one

/-- The reciprocal column at node `r` is `1 / d r`. -/
theorem recipCol_at (d : (⟨S100000, .f32⟩ : BufTy).Contents (Elt Ideal)) (r : Fin 100000) :
    recipCol d (ix2 r 0) = Ideal.div 1 (d (ix1 r)) := by
  unfold recipCol
  refine (shapeCast_apply _ _ (ix2 r 0) (ix1 r) (by rw [Shape.rowMajor_val_one, Shape.rowMajor_val_two]; simp)).trans ?_
  exact congrArg (fun u => Ideal.div u (d (ix1 r))) (one_at r)

/-- A count raised to at least one is not zero. -/
theorem atLeastOne_ne_zero (d : (⟨S100000, .f32⟩ : BufTy).Contents (Elt Ideal)) (r : Fin 100000) :
    atLeastOne d (ix1 r) ≠ 0 := by
  unfold atLeastOne
  rw [maximumf_apply, one_at]
  exact max_one_ne_zero _

end Cert.KernelIdeal.Stages

end
-- ==== Proof.RefLayers.lean ====
/-
  The idealized reference, layer by layer, is the kernel's formulas.

  The reference computes each mean-aggregating layer as  (aggregated sums / max(degree, 1)) · Wl + h · Wr + b  with
  whole-array matrix products, and the trust head as  1 / (1 + e^(−z)).  Read at a node `r` and a feature `q`, a matrix
  product is the sum over the contracted index, a broadcast reads the one entry it repeats, and the quotient by
  `max(degree, 1)` — never zero — is the product with its reciprocal.  So each layer's array is the formula the kernel's
  blocks assemble, over the same aggregated sums and the same degrees; and the two programs build those sums and
  degrees by the same host operations from the same arguments.
-/
import proofs.«134192_j80023830659561_2_alg».proof.Proof.Gen.ReferenceIdeal.Read
import proofs.«134192_j80023830659561_2_alg».proof.Proof.Degree
import proofs.«134192_j80023830659561_2_alg».proof.Proof.Blocks
import proofs.«134192_j80023830659561_2_alg».proof.Proof.Results

set_option maxRecDepth 16384

noncomputable section

namespace Cert.ReferenceIdeal.RefValue

open Cert.ReferenceIdeal Cert.ReferenceIdeal.Read Cert.SageMath
open Idealize.ShloMosaic Idealize.ShloMosaic.ValueIdx
open Cert.KernelIdeal.Stages (aggSum degMax degRaw atLeastOne recipCol invDeg recipCol_at atLeastOne_ne_zero)
open Cert.KernelIdeal.Blocks (layer1 layer1At layer2 layer2At trust trustAt)

/-! ## The two programs build the aggregated sums and the degrees by the same operations -/

theorem agg1 (x : (⟨S100000x64, .f32⟩ : BufTy).Contents (Elt Ideal)) (ei : (⟨S2x1600000, .i32⟩ : BufTy).Contents (Elt Ideal)) : val_main_v13 (F := Ideal) x ei = aggSum ei x := rfl

theorem deg1 (ei : (⟨S2x1600000, .i32⟩ : BufTy).Contents (Elt Ideal)) : val_main_v19 (F := Ideal) ei = atLeastOne (degRaw ei) := rfl

theorem agg2 (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal)) :
    val_main_v39 (F := Ideal) x ei Wl1 Wr1 b1 = aggSum ei (val_main_v29 (F := Ideal) x ei Wl1 Wr1 b1) := rfl

theorem deg2 (ei : (⟨S2x1600000, .i32⟩ : BufTy).Contents (Elt Ideal)) : val_main_v45 (F := Ideal) ei = atLeastOne (degRaw ei) := rfl

/-! ## The first layer -/

/-- The reference's first layer at (r, q), over any aggregated sums `A` and any nonzero divisors `D`. -/
theorem layer1_key (A x : (⟨S100000x64, .f32⟩ : BufTy).Contents (Elt Ideal)) (D : (⟨S100000, .f32⟩ : BufTy).Contents (Elt Ideal)) (Wl Wr : (⟨S64x64, .f32⟩ : BufTy).Contents (Elt Ideal)) (b : (⟨S64, .f32⟩ : BufTy).Contents (Elt Ideal))
    (hD : ∀ r : Fin 100000, D (ix1 r) ≠ 0) (r : Fin 100000) (q : Fin 64) :
    FloatOps.maximumf (F := Ideal) (φ := .f32)
      (FloatOps.addf (F := Ideal) (φ := .f32)
        (FloatOps.addf (F := Ideal) (φ := .f32)
          (∑ k : Fin 64, FloatOps.hostDivf (F := Ideal) (φ := .f32) (A (lidx_main_v23 (ix2 r q) k)) (D (idx_main_v20 (idx_main_v21 (lidx_main_v23 (ix2 r q) k))))
            * Wl (ridx_main_v23 (ix2 r q) k))
          (∑ k : Fin 64, x (lidx_main_v24 (ix2 r q) k) * Wr (ridx_main_v24 (ix2 r q) k)))
        (b (idx_main_v26 (idx_main_v27 (ix2 r q)))))
      (FloatOps.ofBits (F := Ideal) .f32 0x00000000#32)
    = layer1At A x (recipCol D) Wl Wr b r q := by
  unfold layer1At
  rw [recipCol_at D r, byReciprocal_eq_byQuotient _ _ (hD r)]
  unfold byQuotient
  have i1 : ∀ k : Fin 64, lidx_main_v23 (ix2 r q) k = ix2 r k := fun k => funext fun a => by match a with | ⟨0, _⟩ => rfl | ⟨1, _⟩ => rfl
  have i2 : ∀ k : Fin 64, ridx_main_v23 (ix2 r q) k = ix2 k q := fun k => funext fun a => by match a with | ⟨0, _⟩ => rfl | ⟨1, _⟩ => rfl
  have i3 : ∀ k : Fin 64, lidx_main_v24 (ix2 r q) k = ix2 r k := fun k => funext fun a => by match a with | ⟨0, _⟩ => rfl | ⟨1, _⟩ => rfl
  have i4 : ∀ k : Fin 64, ridx_main_v24 (ix2 r q) k = ix2 k q := fun k => funext fun a => by match a with | ⟨0, _⟩ => rfl | ⟨1, _⟩ => rfl
  have i5 : idx_main_v26 (idx_main_v27 (ix2 r q)) = ix1 q := funext fun a => by match a with | ⟨0, _⟩ => rfl
  have i6 : ∀ k : Fin 64, idx_main_v20 (idx_main_v21 (ix2 r k)) = ix1 r := fun k => funext fun a => by match a with | ⟨0, _⟩ => rfl
  simp only [i1, i2, i3, i4, i5, i6]
  rfl

/-- The reference's first layer is the first-layer formula over its own aggregated sums and degrees. -/
theorem layer1_ref (x : (⟨S100000x64, .f32⟩ : BufTy).Contents (Elt Ideal)) (ei : (⟨S2x1600000, .i32⟩ : BufTy).Contents (Elt Ideal)) (Wl Wr : (⟨S64x64, .f32⟩ : BufTy).Contents (Elt Ideal)) (b : (⟨S64, .f32⟩ : BufTy).Contents (Elt Ideal)) :
    val_main_v29 (F := Ideal) x ei Wl Wr b
      = layer1 (val_main_v13 (F := Ideal) x ei) x (recipCol (val_main_v19 (F := Ideal) ei)) Wl Wr b := by
  funext j
  obtain ⟨r, q, rfl⟩ : ∃ (r : Fin 100000) (q : Fin 64), j = ix2 r q := ⟨j 0, j 1, eq_ix2 j⟩
  rw [val_main_v29_apply, val_main_v28_apply, val_main_v25_apply, val_main_v23_apply, val_main_v24_apply, val_main_v27_apply,
    val_main_v26_apply, val_main_call0_v0_apply, val_main_call0_cst_apply]
  have e : ∀ i, val_main_v22 (F := Ideal) x ei i
      = FloatOps.hostDivf (F := Ideal) (φ := .f32) (val_main_v13 (F := Ideal) x ei i) (val_main_v19 (F := Ideal) ei (idx_main_v20 (idx_main_v21 i))) :=
    fun i => by rw [val_main_v22_apply, val_main_v21_apply, val_main_v20_apply]
  simp only [e]
  exact layer1_key (val_main_v13 (F := Ideal) x ei) x (val_main_v19 (F := Ideal) ei) Wl Wr b
    (fun r => by rw [deg1]; exact atLeastOne_ne_zero _ r) r q

/-! ## The second layer -/

/-- The reference's second layer at (r, q), over any aggregated sums `A`, node features `H` and nonzero divisors `D`. -/
theorem layer2_key (A H : (⟨S100000x64, .f32⟩ : BufTy).Contents (Elt Ideal)) (D : (⟨S100000, .f32⟩ : BufTy).Contents (Elt Ideal)) (Wl Wr : (⟨S64x32, .f32⟩ : BufTy).Contents (Elt Ideal)) (b : (⟨S32, .f32⟩ : BufTy).Contents (Elt Ideal))
    (hD : ∀ r : Fin 100000, D (ix1 r) ≠ 0) (r : Fin 100000) (q : Fin 32) :
    FloatOps.addf (F := Ideal) (φ := .f32)
      (FloatOps.addf (F := Ideal) (φ := .f32)
        (∑ k : Fin 64, FloatOps.hostDivf (F := Ideal) (φ := .f32) (A (lidx_main_v49 (ix2 r q) k)) (D (idx_main_v46 (idx_main_v47 (lidx_main_v49 (ix2 r q) k))))
          * Wl (ridx_main_v49 (ix2 r q) k))
        (∑ k : Fin 64, H (lidx_main_v50 (ix2 r q) k) * Wr (ridx_main_v50 (ix2 r q) k)))
      (b (idx_main_v52 (idx_main_v53 (ix2 r q))))
    = layer2At A H (recipCol D) Wl Wr b r q := by
  unfold layer2At
  rw [recipCol_at D r, byReciprocal_eq_byQuotient _ _ (hD r)]
  unfold byQuotient
  have i1 : ∀ k : Fin 64, lidx_main_v49 (ix2 r q) k = ix2 r k := fun k => funext fun a => by match a with | ⟨0, _⟩ => rfl | ⟨1, _⟩ => rfl
  have i2 : ∀ k : Fin 64, ridx_main_v49 (ix2 r q) k = ix2 k q := fun k => funext fun a => by match a with | ⟨0, _⟩ => rfl | ⟨1, _⟩ => rfl
  have i3 : ∀ k : Fin 64, lidx_main_v50 (ix2 r q) k = ix2 r k := fun k => funext fun a => by match a with | ⟨0, _⟩ => rfl | ⟨1, _⟩ => rfl
  have i4 : ∀ k : Fin 64, ridx_main_v50 (ix2 r q) k = ix2 k q := fun k => funext fun a => by match a with | ⟨0, _⟩ => rfl | ⟨1, _⟩ => rfl
  have i5 : idx_main_v52 (idx_main_v53 (ix2 r q)) = ix1 q := funext fun a => by match a with | ⟨0, _⟩ => rfl
  have i6 : ∀ k : Fin 64, idx_main_v46 (idx_main_v47 (ix2 r k)) = ix1 r := fun k => funext fun a => by match a with | ⟨0, _⟩ => rfl
  simp only [i1, i2, i3, i4, i5, i6]
  rfl

/-- The reference's second layer is the second-layer formula over its own aggregated sums, first layer and degrees. -/
theorem layer2_ref (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal))
    (Wl2 Wr2 : (⟨S64x32, .f32⟩ : BufTy).Contents (Elt Ideal)) (b2 : (⟨S32, .f32⟩ : BufTy).Contents (Elt Ideal)) :
    val_main_v54 (F := Ideal) x ei Wl1 Wr1 b1 Wl2 Wr2 b2
      = layer2 (val_main_v39 (F := Ideal) x ei Wl1 Wr1 b1) (val_main_v29 (F := Ideal) x ei Wl1 Wr1 b1)
          (recipCol (val_main_v45 (F := Ideal) ei)) Wl2 Wr2 b2 := by
  funext j
  obtain ⟨r, q, rfl⟩ : ∃ (r : Fin 100000) (q : Fin 32), j = ix2 r q := ⟨j 0, j 1, eq_ix2 j⟩
  rw [val_main_v54_apply, val_main_v51_apply, val_main_v49_apply, val_main_v50_apply, val_main_v53_apply, val_main_v52_apply]
  have e : ∀ i, val_main_v48 (F := Ideal) x ei Wl1 Wr1 b1 i
      = FloatOps.hostDivf (F := Ideal) (φ := .f32) (val_main_v39 (F := Ideal) x ei Wl1 Wr1 b1 i) (val_main_v45 (F := Ideal) ei (idx_main_v46 (idx_main_v47 i))) :=
    fun i => by rw [val_main_v48_apply, val_main_v47_apply, val_main_v46_apply]
  simp only [e]
  exact layer2_key (val_main_v39 (F := Ideal) x ei Wl1 Wr1 b1) (val_main_v29 (F := Ideal) x ei Wl1 Wr1 b1) (val_main_v45 (F := Ideal) ei) Wl2 Wr2 b2
    (fun r => by rw [deg2]; exact atLeastOne_ne_zero _ r) r q

/-! ## The trust head -/

/-- The trust head of the rows of any array `H2` of second-layer values, at node `r`. -/
def trustOfAt (H2 : (⟨S100000x32, .f32⟩ : BufTy).Contents (Elt Ideal)) (Wt1 : (⟨S32x16, .f32⟩ : BufTy).Contents (Elt Ideal)) (bt1 : (⟨S16, .f32⟩ : BufTy).Contents (Elt Ideal)) (Wt2 : (⟨S16x1, .f32⟩ : BufTy).Contents (Elt Ideal))
    (bt2 : (⟨S1, .f32⟩ : BufTy).Contents (Elt Ideal)) (r : Fin 100000) (q : Fin 1) : EReal :=
  trustHead (fun k' => H2 (ix2 r k')) (fun k' k => Wt1 (ix2 k' k)) (fun k => bt1 (ix1 k)) (fun k => Wt2 (ix2 k q)) (bt2 (ix1 q))

/-- The same as an array. -/
def trustOf (H2 : (⟨S100000x32, .f32⟩ : BufTy).Contents (Elt Ideal)) (Wt1 : (⟨S32x16, .f32⟩ : BufTy).Contents (Elt Ideal)) (bt1 : (⟨S16, .f32⟩ : BufTy).Contents (Elt Ideal)) (Wt2 : (⟨S16x1, .f32⟩ : BufTy).Contents (Elt Ideal))
    (bt2 : (⟨S1, .f32⟩ : BufTy).Contents (Elt Ideal)) : (⟨S100000x1, .f32⟩ : BufTy).Contents (Elt Ideal) :=
  fun j => trustOfAt H2 Wt1 bt1 Wt2 bt2 (j 0) (j 1)

/-- The kernel's trust array is the trust head of its own second-layer array. -/
theorem trust_eq (A H : (⟨S100000x64, .f32⟩ : BufTy).Contents (Elt Ideal)) (I : (⟨S100000x1, .f32⟩ : BufTy).Contents (Elt Ideal)) (Wl Wr : (⟨S64x32, .f32⟩ : BufTy).Contents (Elt Ideal)) (b : (⟨S32, .f32⟩ : BufTy).Contents (Elt Ideal))
    (Wt1 : (⟨S32x16, .f32⟩ : BufTy).Contents (Elt Ideal)) (bt1 : (⟨S16, .f32⟩ : BufTy).Contents (Elt Ideal)) (Wt2 : (⟨S16x1, .f32⟩ : BufTy).Contents (Elt Ideal)) (bt2 : (⟨S1, .f32⟩ : BufTy).Contents (Elt Ideal)) :
    trust A H I Wl Wr b Wt1 bt1 Wt2 bt2 = trustOf (layer2 A H I Wl Wr b) Wt1 bt1 Wt2 bt2 := rfl

/-- The reference's trust value at node `r`, over any second-layer array `H2`: 1 / (1 + e^(−z)) is the logistic function of z. -/
theorem trust_key (H2 : (⟨S100000x32, .f32⟩ : BufTy).Contents (Elt Ideal)) (Wt1 : (⟨S32x16, .f32⟩ : BufTy).Contents (Elt Ideal)) (bt1 : (⟨S16, .f32⟩ : BufTy).Contents (Elt Ideal)) (Wt2 : (⟨S16x1, .f32⟩ : BufTy).Contents (Elt Ideal))
    (bt2 : (⟨S1, .f32⟩ : BufTy).Contents (Elt Ideal)) (r : Fin 100000) (q : Fin 1) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) (FloatOps.addf (F := Ideal) (φ := .f32)
          (∑ k : Fin 16, FloatOps.maximumf (F := Ideal) (φ := .f32)
              (FloatOps.addf (F := Ideal) (φ := .f32)
                (∑ k' : Fin 32, H2 (lidx_main_v55 (lidx_main_v60 (ix2 r q) k) k') * Wt1 (ridx_main_v55 (lidx_main_v60 (ix2 r q) k) k'))
                (bt1 (idx_main_v56 (idx_main_v57 (lidx_main_v60 (ix2 r q) k)))))
              (FloatOps.ofBits (F := Ideal) .f32 0x00000000#32)
            * Wt2 (ridx_main_v60 (ix2 r q) k))
          (bt2 (idx_main_v61 (idx_main_v62 (ix2 r q))))))))
    = trustOfAt H2 Wt1 bt1 Wt2 bt2 r q := by
  unfold trustOfAt trustHead
  have i1 : ∀ k : Fin 16, lidx_main_v60 (ix2 r q) k = ix2 r k := fun k => funext fun a => by match a with | ⟨0, _⟩ => rfl | ⟨1, _⟩ => rfl
  have i2 : ∀ k : Fin 16, ridx_main_v60 (ix2 r q) k = ix2 k q := fun k => funext fun a => by match a with | ⟨0, _⟩ => rfl | ⟨1, _⟩ => rfl
  have i3 : ∀ (k : Fin 16) (k' : Fin 32), lidx_main_v55 (ix2 r k) k' = ix2 r k' := fun k k' => funext fun a => by match a with | ⟨0, _⟩ => rfl | ⟨1, _⟩ => rfl
  have i4 : ∀ (k : Fin 16) (k' : Fin 32), ridx_main_v55 (ix2 r k) k' = ix2 k' k := fun k k' => funext fun a => by match a with | ⟨0, _⟩ => rfl | ⟨1, _⟩ => rfl
  have i5 : ∀ k : Fin 16, idx_main_v56 (idx_main_v57 (ix2 r k)) = ix1 k := fun k => funext fun a => by match a with | ⟨0, _⟩ => rfl
  have i6 : idx_main_v61 (idx_main_v62 (ix2 r q)) = ix1 q := funext fun a => by
    match a with
    | ⟨0, _⟩ => exact Fin.ext (by have := q.isLt; show (0 : Nat) = q.val; omega)
  simp only [i1, i2, i3, i4, i5, i6]
  show Ideal.div (Ideal.ofBits .f32 0x3F800000#32) (Ideal.ofBits .f32 0x3F800000#32 + Ideal.exp (-_)) = Ideal.logistic _
  rw [ofBits_one]
  rfl

/-- The reference's trust array is the trust head of its own second-layer array. -/
theorem trust_ref (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal))
    (Wl2 Wr2 : (⟨S64x32, .f32⟩ : BufTy).Contents (Elt Ideal)) (b2 : (⟨S32, .f32⟩ : BufTy).Contents (Elt Ideal)) (Wt1 : (⟨S32x16, .f32⟩ : BufTy).Contents (Elt Ideal)) (bt1 : (⟨S16, .f32⟩ : BufTy).Contents (Elt Ideal)) (Wt2 : (⟨S16x1, .f32⟩ : BufTy).Contents (Elt Ideal)) (bt2 : (⟨S1, .f32⟩ : BufTy).Contents (Elt Ideal)) :
    val_main_v69 (F := Ideal) x ei Wl1 Wr1 b1 Wl2 Wr2 b2 Wt1 bt1 Wt2 bt2 = trustOf (val_main_v54 (F := Ideal) x ei Wl1 Wr1 b1 Wl2 Wr2 b2) Wt1 bt1 Wt2 bt2 := by
  funext j
  obtain ⟨r, q, rfl⟩ : ∃ (r : Fin 100000) (q : Fin 1), j = ix2 r q := ⟨j 0, j 1, eq_ix2 j⟩
  rw [val_main_v69_apply, val_main_v68_apply, val_main_cst_11_apply, val_main_v67_apply, val_main_v66_apply, val_main_cst_10_apply,
    val_main_v65_apply, val_main_v64_apply, val_main_v63_apply, val_main_v60_apply, val_main_v62_apply, val_main_v61_apply]
  have e : ∀ i, val_main_v59 (F := Ideal) x ei Wl1 Wr1 b1 Wl2 Wr2 b2 Wt1 bt1 i
      = FloatOps.maximumf (F := Ideal) (φ := .f32)
          (FloatOps.addf (F := Ideal) (φ := .f32) (∑ k' : Fin 32, val_main_v54 (F := Ideal) x ei Wl1 Wr1 b1 Wl2 Wr2 b2 (lidx_main_v55 i k') * Wt1 (ridx_main_v55 i k'))
            (bt1 (idx_main_v56 (idx_main_v57 i))))
          (FloatOps.ofBits (F := Ideal) .f32 0x00000000#32) :=
    fun i => by rw [val_main_v59_apply, val_main_v58_apply, val_main_v55_apply, val_main_v57_apply, val_main_v56_apply,
      val_main_call1_v0_apply, val_main_call1_cst_apply]
  simp only [e]
  exact trust_key (val_main_v54 (F := Ideal) x ei Wl1 Wr1 b1 Wl2 Wr2 b2) Wt1 bt1 Wt2 bt2 r q

/-! ## The reference's two results are the kernel program's -/

theorem ref_hidden1 (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal)) :
    val_main_v29 (F := Ideal) x ei Wl1 Wr1 b1 = Cert.KernelIdeal.Results.hidden1 ei x Wl1 Wr1 b1 := by
  rw [layer1_ref, agg1, deg1]
  rfl

theorem ref_hidden2 (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal))
    (Wl2 Wr2 : (⟨S64x32, .f32⟩ : BufTy).Contents (Elt Ideal)) (b2 : (⟨S32, .f32⟩ : BufTy).Contents (Elt Ideal)) :
    val_main_v54 (F := Ideal) x ei Wl1 Wr1 b1 Wl2 Wr2 b2 = Cert.KernelIdeal.Results.hidden2 ei x Wl1 Wr1 b1 Wl2 Wr2 b2 := by
  rw [layer2_ref, agg2, deg2, ref_hidden1]
  rfl

theorem ref_trust (x : (⟨S100000x64, .f32⟩ : BufTy).Contents (Elt Ideal)) (ei : (⟨S2x1600000, .i32⟩ : BufTy).Contents (Elt Ideal)) (Wl1 Wr1 : (⟨S64x64, .f32⟩ : BufTy).Contents (Elt Ideal)) (b1 : (⟨S64, .f32⟩ : BufTy).Contents (Elt Ideal))
    (Wl2 Wr2 : (⟨S64x32, .f32⟩ : BufTy).Contents (Elt Ideal)) (b2 : (⟨S32, .f32⟩ : BufTy).Contents (Elt Ideal)) (Wt1 : (⟨S32x16, .f32⟩ : BufTy).Contents (Elt Ideal)) (bt1 : (⟨S16, .f32⟩ : BufTy).Contents (Elt Ideal)) (Wt2 : (⟨S16x1, .f32⟩ : BufTy).Contents (Elt Ideal)) (bt2 : (⟨S1, .f32⟩ : BufTy).Contents (Elt Ideal)) :
    val_main_v69 (F := Ideal) x ei Wl1 Wr1 b1 Wl2 Wr2 b2 Wt1 bt1 Wt2 bt2 = Cert.KernelIdeal.Results.trustOut ei x Wl1 Wr1 b1 Wl2 Wr2 b2 Wt1 bt1 Wt2 bt2 := by
  rw [trust_ref, ref_hidden2]
  unfold Cert.KernelIdeal.Results.trustOut
  rw [trust_eq]
  rfl

end Cert.ReferenceIdeal.RefValue

end
-- ==== Proof.lean ====
/-
  A two-layer mean-aggregating graph network with a trust head: the kernel program against its reference,
  on the extended reals.

  Both programs take node features `x` (100000 × 64), an edge list, and the weights of two graph layers and of a
  small two-layer head.  Each layer sums, for every node, the features of its in-neighbours (a gather along the
  edges' sources and a scatter-add into their destinations), divides by max(in-degree, 1), and applies
      mean · Wl + h · Wr + b;
  the first layer is followed by the positive part, the second is the first result, and the head
      logistic( max(h₂ · Wt1 + bt1, 0) · Wt2 + bt2 )
  is the second.

  The kernel program does the gathers and scatter-adds on the host exactly as the reference does, computes the
  reciprocal 1 / max(degree, 1) once, and runs the dense part of each layer in a kernel over blocks of rows: the
  first over 20 blocks of 5000 nodes, the second (with the head) over 25 blocks of 4000 nodes, multiplying by
  the reciprocal where the reference divides, rounding to bfloat16 on the way into the matrix unit (the identity
  on the extended reals), and using the built-in logistic where the reference spells 1 / (1 + e^(−z)).

  The proof reads the kernel program's two result arrays off its run as whole-array functions of the arguments
  (the blocks tile the rows and a row of a block only depends on the same row of the inputs), reads the reference's
  two results index by index, and joins the two by three facts: the host stages of the two programs are the same
  operations of the same arguments; a quotient by a nonzero extended real is the product with its reciprocal, and
  max(degree, 1) is never zero; and 1 / (1 + e^(−z)) is the logistic function.  No finiteness of the inputs is used.
  The three frame claims are the generated frame proofs and the reference's generated run.  The idealized kernel
  program is the word-level program's own text read on the extended reals, with no operation rewritten, so the
  conjunct that relates the two is trivially true.
-/
import proofs.«134192_j80023830659561_2_alg».proof.Defs
import proofs.«134192_j80023830659561_2_alg».proof.Proof.Gen.Kernel
import proofs.«134192_j80023830659561_2_alg».proof.Proof.Gen.Kernel.Skeleton
import proofs.«134192_j80023830659561_2_alg».proof.Proof.Gen.Kernel.Launch
import proofs.«134192_j80023830659561_2_alg».proof.Proof.Gen.Kernel.Points
import proofs.«134192_j80023830659561_2_alg».proof.Proof.Gen.Kernel.Frame
import proofs.«134192_j80023830659561_2_alg».proof.Proof.Gen.KernelIdeal
import proofs.«134192_j80023830659561_2_alg».proof.Proof.Gen.KernelIdeal.Skeleton
import proofs.«134192_j80023830659561_2_alg».proof.Proof.Gen.KernelIdeal.Launch
import proofs.«134192_j80023830659561_2_alg».proof.Proof.Gen.KernelIdeal.Points
import proofs.«134192_j80023830659561_2_alg».proof.Proof.Gen.KernelIdeal.Frame
import proofs.«134192_j80023830659561_2_alg».proof.Proof.Gen.ReferenceIdeal
import proofs.«134192_j80023830659561_2_alg».proof.Proof.Gen.Pre_finite_inputs
import proofs.«134192_j80023830659561_2_alg».proof.Proof.Gen.ReferenceIdeal.Run
import proofs.«134192_j80023830659561_2_alg».proof.Proof.Gen.ReferenceIdeal.Read
import proofs.«134192_j80023830659561_2_alg».proof.Proof.Results
import proofs.«134192_j80023830659561_2_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs, from memories agreeing on the arguments, end with the same two result arrays:
    the second layer's node features and the trust scores, as functions of the arguments. -/
theorem algebraic : Cert.algebraic_KernelIdeal_ReferenceIdeal := by
  intro m ρ m' ρ' _ hagree
  refine ⟨fun c => Cert.KernelIdeal.Results.hidden2 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Results.trustOut (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v54_eq, Cert.ReferenceIdeal.RefValue.ref_hidden2,
      (hagree c).1, (hagree c).2.1, (hagree c).2.2.1, (hagree c).2.2.2.1, (hagree c).2.2.2.2.1, (hagree c).2.2.2.2.2.1, (hagree c).2.2.2.2.2.2.1, (hagree c).2.2.2.2.2.2.2.1]
  · rw [Cert.ReferenceIdeal.Read.val_main_v69_eq, Cert.ReferenceIdeal.RefValue.ref_trust,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
